-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x128 .f32) (main_arg1 : FVec F S512x512 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S256x128 : Shape := ⟨2, ![256, 128]⟩
abbrev S128x256 : Shape := ⟨2, ![128, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S1x256 : Shape := ⟨2, ![1, 256]⟩
abbrev S64x256 : Shape := ⟨2, ![64, 256]⟩
abbrev S64x128 : Shape := ⟨2, ![64, 128]⟩
abbrev S64x1 : Shape := ⟨2, ![64, 1]⟩
abbrev S1x128x256 : Shape := ⟨3, ![1, 128, 256]⟩
abbrev S64x1x256 : Shape := ⟨3, ![64, 1, 256]⟩
abbrev S64x128x256 : Shape := ⟨3, ![64, 128, 256]⟩
abbrev S1x1x256 : Shape := ⟨3, ![1, 1, 256]⟩
abbrev S64x128x1 : Shape := ⟨3, ![64, 128, 1]⟩

abbrev nBuf : Space → Nat
  | .hbm => 27
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S256x128, .f32⟩
  | .hbm, ⟨12, _⟩ => ⟨S128x256, .f32⟩
  | .hbm, ⟨13, _⟩ => ⟨S512x256, .f32⟩
  | .hbm, ⟨14, _⟩ => ⟨S128x256, .f32⟩
  | .hbm, ⟨15, _⟩ => ⟨S512x256, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S256x256, .bf16⟩
  | .hbm, ⟨24, _⟩ => ⟨S256x256, .bf16⟩
  | .hbm, ⟨25, _⟩ => ⟨S256x256, .bf16⟩
  | .hbm, ⟨26, _⟩ => ⟨S512x256, .f32⟩
  | .local _ .vmem, ⟨0, _⟩ => ⟨S128x256, .f32⟩
  | .local _ .vmem, ⟨1, _⟩ => ⟨S128x256, .f32⟩
  | .local _ .vmem, ⟨2, _⟩ => ⟨S64x256, .f32⟩
  | .local _ .vmem, ⟨3, _⟩ => ⟨S64x256, .f32⟩
  | .local _ .vmem, ⟨4, _⟩ => ⟨S64x128, .f32⟩
  | .local _ .vmem, ⟨5, _⟩ => ⟨S64x128, .f32⟩
  | .local _ .vmem, ⟨6, _⟩ => ⟨S64x1, .f32⟩
  | .local _ .vmem, ⟨7, _⟩ => ⟨S64x1, .f32⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  slices_S256x256_S256x128_0_0 : S256x256.Slices ![0, 0] S256x128
  slices_S256x256_S256x128_0_128 : S256x256.Slices ![0, 128] S256x128
  transposes_S256x128_S128x256_1_0 : S256x128.Transposes [1, 0] S128x256
  reducesTo_S512x512_S512_d1 : S512x512.ReducesTo [1] S512
  h_S_ : 0 < S_.numel
  bcast_S512_S512x1_0 : S512.BroadcastsInDim S512x1 (![0] : Fin 1 → Fin S512x1.rank)
  shapeCasts_S256_S1x256 : S256.ShapeCasts S1x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  shapeCasts_S1x256_S1x1x256 : S1x256.ShapeCasts S1x1x256
  broadcasts_S1x1x256_S64x128x256 : S1x1x256.Broadcasts S64x128x256
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  broadcasts_S64x128x1_S64x128x256 : S64x128x1.Broadcasts S64x128x256
  reduces_S64x128x256_S64x256 : S64x128x256.Reduces [1] S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  broadcasts_S64x1_S64x256 : S64x1.Broadcasts S64x256
  broadcasts_S1x256_S64x256 : S1x256.Broadcasts S64x256
  dot_S512x128_S128x256_S512x256_1_0_0_1_n_n_wf : DotDims.WF S512x128 S128x256 S512x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S512x256.size a
  hwx0_0 : ∀ i : grid0.Coords, EltTy.bits .f32 = 32 ∨ (Rect.block (s := S512x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S512x256.size a
  hwx0_1 : ∀ i : grid0.Coords, EltTy.bits .f32 = 32 ∨ (Rect.block (s := S512x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x512.size a
  hwx0_2 : ∀ i : grid0.Coords, EltTy.bits .f32 = 32 ∨ (Rect.block (s := S512x512) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S512x1.size a
  hwx0_3 : ∀ i : grid0.Coords, EltTy.bits .f32 = 32 ∨ (Rect.block (s := S512x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x256.size a ≤ S512x256.size a
  hwx0_11 : ∀ i : grid0.Coords, EltTy.bits .f32 = 32 ∨ (Rect.block (s := S512x256) S64x256.size (cc0_transform_11 i) (hinb0_11 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v3) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S64x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S256x128 : Shape := ⟨2, ![256, 128]⟩
abbrev S128x256 : Shape := ⟨2, ![128, 256]⟩
abbrev S512x256 : Shape := ⟨2, ![512, 256]⟩
abbrev S1x512x256 : Shape := ⟨3, ![1, 512, 256]⟩
abbrev S512x1x256 : Shape := ⟨3, ![512, 1, 256]⟩
abbrev S512x512x256 : Shape := ⟨3, ![512, 512, 256]⟩
abbrev S1x1x256 : Shape := ⟨3, ![1, 1, 256]⟩
abbrev S_ : Shape := ⟨0, ![]⟩
abbrev S512x512x1 : Shape := ⟨3, ![512, 512, 1]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S256x128, .f32⟩
  | .hbm, ⟨12, _⟩ => ⟨S128x256, .f32⟩
  | .hbm, ⟨13, _⟩ => ⟨S512x256, .f32⟩
  | .hbm, ⟨14, _⟩ => ⟨S128x256, .f32⟩
  | .hbm, ⟨15, _⟩ => ⟨S512x256, .f32⟩
  | .hbm, ⟨16, _⟩ => ⟨S1x512x256, .f32⟩
  | .hbm, ⟨17, _⟩ => ⟨S512x1x256, .f32⟩
  | .hbm, ⟨18, _⟩ => ⟨S512x512x256, .f32⟩
  | .hbm, ⟨19, _⟩ => ⟨S512x512x256, .f32⟩
  | .hbm, ⟨20, _⟩ => ⟨S512x512x256, .f32⟩
  | .hbm, ⟨21, _⟩ => ⟨S1x1x256, .f32⟩
  | .hbm, ⟨22, _⟩ => ⟨S512x512x256, .f32⟩
  | .hbm, ⟨23, _⟩ => ⟨S512x512x256, .f32⟩
  | .hbm, ⟨24, _⟩ => ⟨S_, .f32⟩
  | .hbm, ⟨25, _⟩ => ⟨S512x512x256, .f32⟩
  | .hbm, ⟨26, _⟩ => ⟨S512x512x256, .f32⟩
  | .hbm, ⟨27, _⟩ => ⟨S512x512x256, .f32⟩
  | .hbm, ⟨28, _⟩ => ⟨S1x1x256, .f32⟩
  | .hbm, ⟨29, _⟩ => ⟨S512x512x256, .f32⟩
  | .hbm, ⟨30, _⟩ => ⟨S512x512x256, .f32⟩
  | .hbm, ⟨31, _⟩ => ⟨S512x512x1, .f32⟩
  | .hbm, ⟨32, _⟩ => ⟨S512x512x256, .f32⟩
  | .hbm, ⟨33, _⟩ => ⟨S512x512x256, .f32⟩
  | .hbm, ⟨34, _⟩ => ⟨S_, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S256x256, .f32⟩
  | .hbm, ⟨40, _⟩ => ⟨S512x256, .f32⟩
  | .hbm, ⟨41, _⟩ => ⟨S1x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S256x256, .f32⟩
  | .hbm, ⟨48, _⟩ => ⟨S512x256, .f32⟩
  | .hbm, ⟨49, _⟩ => ⟨S1x256, .f32⟩
  | .hbm, ⟨50, _⟩ => ⟨S512x256, .f32⟩
  | .hbm, ⟨51, _⟩ => ⟨S512x256, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S256x256_S256x128_0_0 : S256x256.Slices ![0, 0] S256x128
  slices_S256x256_S256x128_0_128 : S256x256.Slices ![0, 128] S256x128
  transposes_S256x128_S128x256_1_0 : S256x128.Transposes [1, 0] S128x256
  bcast_S512x256_S1x512x256_1_2 : S512x256.BroadcastsInDim S1x512x256 (![1, 2] : Fin 2 → Fin S1x512x256.rank)
  bcast_S512x256_S512x1x256_0_2 : S512x256.BroadcastsInDim S512x1x256 (![0, 2] : Fin 2 → Fin S512x1x256.rank)
  bcast_S1x512x256_S512x512x256_0_1_2 : S1x512x256.BroadcastsInDim S512x512x256 (![0, 1, 2] : Fin 3 → Fin S512x512x256.rank)
  bcast_S512x1x256_S512x512x256_0_1_2 : S512x1x256.BroadcastsInDim S512x512x256 (![0, 1, 2] : Fin 3 → Fin S512x512x256.rank)
  bcast_S256_S1x1x256_2 : S256.BroadcastsInDim S1x1x256 (![2] : Fin 1 → Fin S1x1x256.rank)
  bcast_S1x1x256_S512x512x256_0_1_2 : S1x1x256.BroadcastsInDim S512x512x256 (![0, 1, 2] : Fin 3 → Fin S512x512x256.rank)
  bcast_S_S512x512x256 : S_.BroadcastsInDim S512x512x256 (![] : Fin 0 → Fin S512x512x256.rank)
  bcast_S512x512_S512x512x1_0_1 : S512x512.BroadcastsInDim S512x512x1 (![0, 1] : Fin 2 → Fin S512x512x1.rank)
  bcast_S512x512x1_S512x512x256_0_1_2 : S512x512x1.BroadcastsInDim S512x512x256 (![0, 1, 2] : Fin 3 → Fin S512x512x256.rank)
  reducesTo_S512x512x256_S512x256_d1 : S512x512x256.ReducesTo [1] S512x256
  h_S_ : 0 < S_.numel
  bcast_S_S512x256 : S_.BroadcastsInDim S512x256 (![] : Fin 0 → Fin S512x256.rank)
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  dot_S512x128_S128x256_S512x256_1_0_0_1_n_n_wf : DotDims.WF S512x128 S128x256 S512x256 [1] [0] [0] [1] [] []
  dot_S512x512x256_S256x256_S512x512x256_2_1_01_0_n_n_wf : DotDims.WF S512x512x256 S256x256 S512x512x256 [2] [1] [0, 1] [0] [] []
  dot_S512x256_S256x256_S512x256_1_0_0_1_n_n_wf : DotDims.WF S512x256 S256x256 S512x256 [1] [0] [0] [1] [] []

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512x256_S256x256_S512x512x256_2_1_01_0_n_n : DotDims S512x512x256 S256x256 S512x512x256 where
  lhsContracting := [2]
  rhsContracting := [1]
  lhsNonContracting := [0, 1]
  rhsNonContracting := [0]
  lhsBatch := []
  rhsBatch := []
  wf := dot_S512x512x256_S256x256_S512x512x256_2_1_01_0_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.EdgeMean.lean ====
/-
  The mathematics of the claim, with no program in it.

  A graph layer over N = 512 nodes and H = 256 channels.  For nodes i (receiver) and j (sender) the edge
  feature is  hid i j h = max (pa j h + pb i h + b1 h) 0,  where pa and pb are the two halves of one
  linear map of the node features:  pa j h = Σ_d x j d · W1 h d,  pb i h = Σ_d x i d · W1 h (128 + d).

  One program applies the second linear map to every edge and then takes the adjacency-weighted mean
  over senders:
      predR i k = (Σ_j adj i j · (Σ_h hid i j h · W2 k h + b2 k)) / 512.
  The other first sums the weighted edge features over senders and applies the linear map once per node:
      predK i k = (Σ_h (Σ_j adj i j · hid i j h) · W2 k h + (Σ_j adj i j) · b2 k) · 2⁻⁹.
  The two agree because a finite sum commutes with a linear map and 2⁻⁹ = 1/512 exactly; on the extended
  reals distributivity fails at the infinities, so the law is stated for entries that are real numbers.
  Both programs then apply the same two dense layers (`outOf`) to their `pred`.
-/
import Idealize.ShloMosaic.PureOps.Ideal
import Idealize.ShloMosaic.PureOps.Ideal.Laws
import Idealize.ShloMosaic.Lib.ValueIdx

noncomputable section

namespace Cert.EdgeMean

open Idealize.ShloMosaic

/-! ## Real numbers inside the extended reals -/

/-- A finite sum of real numbers, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, read in the extended reals, is the larger of the readings. -/
theorem coe_max (a b : ℝ) : ((max a b : ℝ) : EReal) = max (a : EReal) (b : EReal) :=
  EReal.coe_strictMono.monotone.map_max

/-! ## The two constants -/

/-- The f32 word 0x3B000000 is 2⁻⁹ = 1/512. -/
theorem ofBits_inv512 : Ideal.ofBits .f32 0x3B000000#32 = ((1 / 512 : ℝ) : EReal) := by
  simp [Ideal.ofBits, Ideal.ieee, -EReal.coe_mul]; norm_num

/-- The f32 word 0x44000000 is 512. -/
theorem ofBits_512 : Ideal.ofBits .f32 0x44000000#32 = ((512 : ℝ) : EReal) := by
  simp [Ideal.ofBits, Ideal.ieee, -EReal.coe_mul]; norm_num

/-! ## The specification -/

variable (x : Fin 512 → Fin 128 → EReal) (adj : Fin 512 → Fin 512 → EReal)
  (W1 : Fin 256 → Fin 256 → EReal) (b1 : Fin 256 → EReal)
  (W2 : Fin 256 → Fin 256 → EReal) (b2 : Fin 256 → EReal)
  (Wo1 : Fin 256 → Fin 256 → EReal) (bo1 : Fin 256 → EReal)
  (Wo2 : Fin 256 → Fin 256 → EReal) (bo2 : Fin 256 → EReal)

/-- Column `128 + d` of a 256-wide row. -/
abbrev hi (d : Fin 128) : Fin 256 := ⟨128 + d.val, by have := d.isLt; omega⟩
/-- Column `d` of a 256-wide row, for `d < 128`. -/
abbrev lo (d : Fin 128) : Fin 256 := ⟨d.val, by have := d.isLt; omega⟩

/-- The sender's half of the first linear map. -/
def pa (j : Fin 512) (h : Fin 256) : EReal := ∑ d : Fin 128, x j d * W1 h (lo d)
/-- The receiver's half of the first linear map. -/
def pb (i : Fin 512) (h : Fin 256) : EReal := ∑ d : Fin 128, x i d * W1 h (hi d)

/-- The edge feature of the pair (receiver i, sender j). -/
def hid (i j : Fin 512) (h : Fin 256) : EReal := max (pa x W1 j h + pb x W1 i h + b1 h) 0

/-- Sum over senders first, one linear map per node, scaled by 2⁻⁹. -/
def predK (i : Fin 512) (k : Fin 256) : EReal :=
  ((∑ h : Fin 256, (∑ j : Fin 512, adj i j * hid x W1 b1 i j h) * W2 k h) + (∑ j : Fin 512, adj i j) * b2 k)
    * Ideal.ofBits .f32 0x3B000000#32

/-- One linear map per edge, then the weighted sum over senders divided by 512. -/
def predR (i : Fin 512) (k : Fin 256) : EReal :=
  Ideal.div (∑ j : Fin 512, adj i j * ((∑ h : Fin 256, hid x W1 b1 i j h * W2 k h) + b2 k))
    (Ideal.ofBits .f32 0x44000000#32)

/-- The two dense layers both programs end with, applied to a node's `pred` row. -/
def outOf (pred : Fin 512 → Fin 256 → EReal) (i : Fin 512) (o : Fin 256) : EReal :=
  (∑ k : Fin 256, max ((∑ k' : Fin 256, pred i k' * Wo1 k k') + bo1 k) 0 * Wo2 o k) + bo2 o

/-! ## The law -/

/-- Over the reals: the weighted sum over senders commutes with the linear map. -/
theorem sum_linear (a : Fin 512 → ℝ) (r : Fin 512 → Fin 256 → ℝ) (w : Fin 256 → ℝ) (b : ℝ) :
    (∑ h : Fin 256, (∑ j : Fin 512, a j * r j h) * w h) + (∑ j : Fin 512, a j) * b
      = ∑ j : Fin 512, a j * ((∑ h : Fin 256, r j h * w h) + b) := by
  simp only [mul_add, Finset.sum_add_distrib, Finset.sum_mul, Finset.mul_sum]
  rw [Finset.sum_comm]
  congr 1
  exact Finset.sum_congr rfl fun j _ => Finset.sum_congr rfl fun h _ => by ring

section
variable (xR : Fin 512 → Fin 128 → ℝ) (adjR : Fin 512 → Fin 512 → ℝ) (W1R : Fin 256 → Fin 256 → ℝ) (b1R : Fin 256 → ℝ)
  (W2R : Fin 256 → Fin 256 → ℝ) (b2R : Fin 256 → ℝ)
variable (hx : ∀ p d, x p d = (xR p d : EReal)) (hW1 : ∀ h d, W1 h d = (W1R h d : EReal)) (hb1 : ∀ h, b1 h = (b1R h : EReal))

/-- The edge feature over the reals. -/
def hidR (i j : Fin 512) (h : Fin 256) : ℝ :=
  max ((∑ d : Fin 128, xR j d * W1R h (lo d)) + (∑ d : Fin 128, xR i d * W1R h (hi d)) + b1R h) 0

include hx hW1 hb1 in
/-- With real inputs every edge feature is a real number. -/
theorem hid_coe (i j : Fin 512) (h : Fin 256) : hid x W1 b1 i j h = (hidR xR W1R b1R i j h : EReal) := by
  unfold hid pa pb hidR
  simp only [hx, hW1, hb1]
  rw [coe_max, EReal.coe_add, EReal.coe_add, coe_sum, coe_sum]
  simp only [EReal.coe_mul, EReal.coe_zero]

include hx hW1 hb1 in
/-- THE LAW: with real inputs the two orders of summation give the same `pred`. -/
theorem predK_eq_predR (hadj : ∀ i j, adj i j = (adjR i j : EReal)) (hW2 : ∀ k h, W2 k h = (W2R k h : EReal))
    (hb2 : ∀ k, b2 k = (b2R k : EReal)) (i : Fin 512) (k : Fin 256) :
    predK x adj W1 b1 W2 b2 i k = predR x adj W1 b1 W2 b2 i k := by
  unfold predK predR
  rw [ofBits_inv512, ofBits_512, Ideal.div_coe (by norm_num : (512 : ℝ) ≠ 0)]
  congr 1
  simp only [hid_coe x W1 b1 xR W1R b1R hx hW1 hb1, hadj, hW2, hb2]
  simp only [← EReal.coe_mul, ← coe_sum, ← EReal.coe_add]
  exact congrArg _ (sum_linear (fun j => adjR i j) (fun j h => hidR xR W1R b1R i j h) (fun h => W2R k h) (b2R k))

end

/-! ## The same over the ten argument arrays -/

section arrays

open ValueIdx

variable (a0 : (⟨2, ![512, 128]⟩ : Shape).Idx → EReal) (a1 : (⟨2, ![512, 512]⟩ : Shape).Idx → EReal)
  (a2 : (⟨2, ![256, 256]⟩ : Shape).Idx → EReal) (a3 : (⟨1, ![256]⟩ : Shape).Idx → EReal)
  (a4 : (⟨2, ![256, 256]⟩ : Shape).Idx → EReal) (a5 : (⟨1, ![256]⟩ : Shape).Idx → EReal)
  (a6 : (⟨2, ![256, 256]⟩ : Shape).Idx → EReal) (a7 : (⟨1, ![256]⟩ : Shape).Idx → EReal)
  (a8 : (⟨2, ![256, 256]⟩ : Shape).Idx → EReal) (a9 : (⟨1, ![256]⟩ : Shape).Idx → EReal)

/-- `predK` of the argument arrays x, adj, W1, b1, W2, b2 (in that order). -/
def predKA : Fin 512 → Fin 256 → EReal :=
  predK (fun p d => a0 (ix2 p d)) (fun i j => a1 (ix2 i j)) (fun h d => a2 (ix2 h d)) (fun h => a3 (ix1 h))
    (fun k h => a4 (ix2 k h)) (fun k => a5 (ix1 k))

/-- `predR` of the same arrays. -/
def predRA : Fin 512 → Fin 256 → EReal :=
  predR (fun p d => a0 (ix2 p d)) (fun i j => a1 (ix2 i j)) (fun h d => a2 (ix2 h d)) (fun h => a3 (ix1 h))
    (fun k h => a4 (ix2 k h)) (fun k => a5 (ix1 k))

/-- The two dense layers with Wo1, bo1, Wo2, bo2 read from the arrays. -/
def outA (pred : Fin 512 → Fin 256 → EReal) : (⟨2, ![512, 256]⟩ : Shape).Idx → EReal := fun i =>
  outOf (fun k k' => a6 (ix2 k k')) (fun k => a7 (ix1 k)) (fun o k => a8 (ix2 o k)) (fun o => a9 (ix1 o)) pred (i 0) (i 1)

/-- The whole result, summing over senders first. -/
def outK : (⟨2, ![512, 256]⟩ : Shape).Idx → EReal := outA a6 a7 a8 a9 (predKA a0 a1 a2 a3 a4 a5)
/-- The whole result, one linear map per edge. -/
def outR : (⟨2, ![512, 256]⟩ : Shape).Idx → EReal := outA a6 a7 a8 a9 (predRA a0 a1 a2 a3 a4 a5)

/-- With real entries in x, adj, W1, b1, W2, b2 the two results are one array (the last four arrays may hold
    anything: both programs treat them alike). -/
theorem outK_eq_outR (h0 : ∀ i, ∃ r : ℝ, a0 i = r) (h1 : ∀ i, ∃ r : ℝ, a1 i = r) (h2 : ∀ i, ∃ r : ℝ, a2 i = r)
    (h3 : ∀ i, ∃ r : ℝ, a3 i = r) (h4 : ∀ i, ∃ r : ℝ, a4 i = r) (h5 : ∀ i, ∃ r : ℝ, a5 i = r) :
    outK a0 a1 a2 a3 a4 a5 a6 a7 a8 a9 = outR a0 a1 a2 a3 a4 a5 a6 a7 a8 a9 := by
  choose r0 e0 using h0
  choose r1 e1 using h1
  choose r2 e2 using h2
  choose r3 e3 using h3
  choose r4 e4 using h4
  choose r5 e5 using h5
  unfold outK outR
  congr 1
  funext i k
  exact predK_eq_predR _ _ _ _ _ _ (fun p d => r0 (ix2 p d)) (fun i j => r1 (ix2 i j)) (fun h d => r2 (ix2 h d))
    (fun h => r3 (ix1 h)) (fun k h => r4 (ix2 k h)) (fun k => r5 (ix1 k)) (fun _ _ => e0 _) (fun _ _ => e2 _) (fun _ => e3 _)
    (fun _ _ => e1 _) (fun _ _ => e4 _) (fun _ => e5 _) i k

end arrays

end Cert.EdgeMean

end
-- ==== Proof.FiniteArgs.lean ====
/-
  From the precondition to real numbers.

  The precondition asks, of each of the ten argument arrays, that every entry x has |x| < +∞, and joins
  the ten answers by "and".  On the extended reals |x| = max x (-x), which is +∞ at both infinities, so
  an entry passing the test is a real number.  Only the first six arrays (the node features, the
  adjacency weights and the two edge layers' weights and biases) are needed by the law that uses this.
-/
import proofs.«119894_j1580547967222_2_alg».proof.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Cert.Pre_finite_inputs

/-- The f32 word 0x7F800000 is +∞. -/
theorem ofBits_inf : Ideal.ofBits .f32 0x7F800000#32 = (⊤ : EReal) := by
  simp [Ideal.ofBits, Ideal.ieee]

/-- An extended real whose absolute value is strictly below +∞ is a real number: at either infinity the
    absolute value is +∞ itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The scalar shape has one index. -/
instance : Subsingleton S_.Idx := ⟨fun a b => funext fun d => d.elim0⟩

/-- "All entries of `a` have absolute value below +∞", when it answers 1, makes every entry a real number. -/
theorem all_real {s : Shape} {axes : List (Fin s.rank)} (a : FVec Ideal s .f32) (dims : Fin S_.rank → Fin s.rank)
    (hb : S_.BroadcastsInDim s dims) (hr : s.ReducesTo axes S_) (h0 : 0 < S_.numel)
    (h : Host.reduce IntOp.andi (cmpf .olt (Host.absf a) (broadcastInDim s dims hb (constant S_ .f32 0x7F800000#32)))
        (constantI S_ 1 1#1) hr h0 ValueIdx.ix0 = 1#1) (i : s.Idx) : ∃ r : ℝ, a i = (r : EReal) :=
  real_of_abs_lt_inf (a i) (Host.reduce_andi_all _ _ hr h0 _ h i)

/-- The precondition makes every entry of the first six argument arrays a real number. -/
theorem real_of_pre [Cert.Pre_finite_inputs.Facts]
    (a0 : FVec Ideal S512x128 .f32) (a1 : FVec Ideal S512x512 .f32) (a2 : FVec Ideal S256x256 .f32)
    (a3 : FVec Ideal S256 .f32) (a4 : FVec Ideal S256x256 .f32) (a5 : FVec Ideal S256 .f32)
    (a6 : FVec Ideal S256x256 .f32) (a7 : FVec Ideal S256 .f32) (a8 : FVec Ideal S256x256 .f32)
    (a9 : FVec Ideal S256 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h' := congrFun h ValueIdx.ix0
  dsimp only [fn, fn_part1, fn_part2, andi] at h'
  simp only [IntOp.andi_eq_one] at h'
  obtain ⟨⟨⟨⟨⟨⟨⟨⟨⟨h0, h1⟩, h2⟩, h3⟩, h4⟩, h5⟩, -⟩, -⟩, -⟩, -⟩ := h'
  exact ⟨all_real a0 _ _ _ _ h0, all_real a1 _ _ _ _ h1, all_real a2 _ _ _ _ h2, all_real a3 _ _ _ _ h3,
    all_real a4 _ _ _ _ h4, all_real a5 _ _ _ _ h5⟩

end Cert.FiniteArgs

end
-- ==== Proof.RefRead.lean ====
/-
  The reference program, read at an index, is the specification `outR`: one linear map per edge, the
  adjacency-weighted mean over senders, then the two dense layers.

  Each stage of the program is read at an index built from coordinates; its operands are then read at
  the indices the layout operations (slices, transposes, broadcasts) send that index to, and these are
  again indices built from the same coordinates.  The stages are taken in the order of the mathematics:
  the two halves of the first linear map, the edge feature, the per-edge linear map, the weighted mean,
  and the two dense layers.
-/
import proofs.«119894_j1580547967222_2_alg».proof.Proof.Gen.ReferenceIdeal.Read
import proofs.«119894_j1580547967222_2_alg».proof.Proof.EdgeMean

noncomputable section

namespace Cert.RefRead

open Idealize.ShloMosaic Idealize.ShloMosaic.ValueIdx Cert.ReferenceIdeal Cert.ReferenceIdeal.Read Cert.EdgeMean

variable (x0 : (⟨S512x128, .f32⟩ : BufTy).Contents (Elt Ideal)) (x1 : (⟨S512x512, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))

/-! ## The two halves of the first linear map -/

/-- The sender's half: entry (j, h) of x · Waᵀ, where Wa is the left half of W1's columns. -/
theorem pa_read (j : Fin 512) (h : Fin 256) :
    val_main_v3 (F := Ideal) x0 x2 (ix2 j h)
      = pa (fun p d => x0 (ix2 p d)) (fun h d => x2 (ix2 h d)) j h := by
  rw [val_main_v3_apply]
  unfold pa
  refine Finset.sum_congr rfl fun d _ => ?_
  rw [val_main_v2_apply, val_main_v0_apply]
  refine congrArg₂ (· * ·) (congrArg x0 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

/-- The receiver's half: entry (i, h) of x · Wbᵀ, where Wb is the right half of W1's columns. -/
theorem pb_read (i : Fin 512) (h : Fin 256) :
    val_main_v5 (F := Ideal) x0 x2 (ix2 i h)
      = pb (fun p d => x0 (ix2 p d)) (fun h d => x2 (ix2 h d)) i h := by
  rw [val_main_v5_apply]
  unfold pb
  refine Finset.sum_congr rfl fun d _ => ?_
  rw [val_main_v4_apply, val_main_v1_apply]
  refine congrArg₂ (· * ·) (congrArg x0 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

/-! ## The edge feature -/

/-- Entry (i, j, h) of relu(pa[None] + pb[:, None] + b1): the sender's half is read at (j, h), the
    receiver's at (i, h), the bias at h. -/
theorem hid_read (i j : Fin 512) (h : Fin 256) :
    val_main_v14 (F := Ideal) x0 x2 x3 (ix3 i j h)
      = hid (fun p d => x0 (ix2 p d)) (fun h d => x2 (ix2 h d)) (fun h => x3 (ix1 h)) i j h := by
  have e8 : idx_main_v6 (idx_main_v8 (ix3 i j h)) = ix2 j h :=
    funext fun a => Fin.ext (by match a with | ⟨0, _⟩ => rfl | ⟨1, _⟩ => rfl)
  have e9 : idx_main_v7 (idx_main_v9 (ix3 i j h)) = ix2 i h :=
    funext fun a => Fin.ext (by match a with | ⟨0, _⟩ => rfl | ⟨1, _⟩ => rfl)
  have e12 : idx_main_v11 (idx_main_v12 (ix3 i j h)) = ix1 h :=
    funext fun a => Fin.ext (by match a with | ⟨0, _⟩ => rfl)
  rw [val_main_v14_apply, val_main_v13_apply, val_main_v10_apply, val_main_v8_apply, val_main_v6_apply,
    val_main_v9_apply, val_main_v7_apply, val_main_v12_apply, val_main_v11_apply,
    val_main_call0_v0_apply, val_main_call0_cst_apply, e8, e9, e12, pa_read, pb_read]
  unfold hid
  simp only [Ideal.addf_def, Ideal.maximumf_def, Ideal.ofBits_def, Ideal.ofBits_zero_f32]

/-! ## One linear map per edge -/

/-- Entry (i, j, k) of einsum('ijh,kh->ijk', hid, W2) + b2. -/
theorem edge_read (i j : Fin 512) (k : Fin 256) :
    val_main_v18 (F := Ideal) x0 x2 x3 x4 x5 (ix3 i j k)
      = (∑ h : Fin 256, hid (fun p d => x0 (ix2 p d)) (fun h d => x2 (ix2 h d)) (fun h => x3 (ix1 h)) i j h
            * x4 (ix2 k h)) + x5 (ix1 k) := by
  have e17 : idx_main_v16 (idx_main_v17 (ix3 i j k)) = ix1 k :=
    funext fun a => Fin.ext (by match a with | ⟨0, _⟩ => rfl)
  rw [val_main_v18_apply, val_main_v15_apply, val_main_v17_apply, val_main_v16_apply, e17, Ideal.addf_def]
  refine congrArg (· + x5 (ix1 k)) (Finset.sum_congr rfl fun h _ => ?_)
  have el : lidx_main_v15 (ix3 i j k) h = ix3 i j h :=
    funext fun a => Fin.ext (by match a with | ⟨0, _⟩ => rfl | ⟨1, _⟩ => rfl | ⟨2, _⟩ => rfl)
  have er : ridx_main_v15 (ix3 i j k) h = ix2 k h :=
    funext fun a => Fin.ext (by match a with | ⟨0, _⟩ => rfl | ⟨1, _⟩ => rfl)
  rw [el, er, hid_read]

/-! ## The adjacency-weighted mean over senders -/

/-- Entry (i, k) of mean_j(adj[:, :, None] * e): the sum over senders of adj i j times the edge's image,
    from the zero the sum starts at, divided by the number of senders. -/
theorem pred_read (i : Fin 512) (k : Fin 256) :
    val_main_v24 (F := Ideal) x0 x1 x2 x3 x4 x5 (ix2 i k) = predRA x0 x1 x2 x3 x4 x5 i k := by
  rw [val_main_v24_apply, val_main_v22_apply, val_main_v23_apply, val_main_cst_0_apply, val_main_cst_apply,
    Ideal.hostDivf_def, Ideal.ofBits_def, Ideal.ofBits_def, Ideal.ofBits_zero_f32, zero_add]
  unfold predRA predR
  refine congrArg (Ideal.div · (Ideal.ofBits .f32 0x44000000#32)) (Finset.sum_congr rfl fun j _ => ?_)
  have e22 : idx_main_v22 (ix2 i k) j = ix3 i j k :=
    funext fun a => Fin.ext (by match a with | ⟨0, _⟩ => rfl | ⟨1, _⟩ => rfl | ⟨2, _⟩ => rfl)
  have e20 : idx_main_v19 (idx_main_v20 (ix3 i j k)) = ix2 i j :=
    funext fun a => Fin.ext (by match a with | ⟨0, _⟩ => rfl | ⟨1, _⟩ => rfl)
  rw [e22, val_main_v21_apply, val_main_v20_apply, val_main_v19_apply, e20, edge_read, Ideal.mulf_def]

/-! ## The two dense layers -/

/-- Entry (p, k) of relu(pred · Wo1ᵀ + bo1). -/
theorem dense1_read (p : Fin 512) (k : Fin 256) :
    val_main_v30 (F := Ideal) x0 x1 x2 x3 x4 x5 x6 x7 (ix2 p k)
      = max ((∑ k' : Fin 256, predRA x0 x1 x2 x3 x4 x5 p k' * x6 (ix2 k k')) + x7 (ix1 k)) 0 := by
  have e28 : idx_main_v27 (idx_main_v28 (ix2 p k)) = ix1 k :=
    funext fun a => Fin.ext (by match a with | ⟨0, _⟩ => rfl)
  rw [val_main_v30_apply, val_main_v29_apply, val_main_v26_apply, val_main_v28_apply, val_main_v27_apply,
    val_main_call1_v0_apply, val_main_call1_cst_apply, e28, Ideal.maximumf_def, Ideal.addf_def, Ideal.ofBits_def,
    Ideal.ofBits_zero_f32]
  refine congrArg (fun t => max (t + x7 (ix1 k)) 0) (Finset.sum_congr rfl fun k' _ => ?_)
  have el : lidx_main_v26 (ix2 p k) k' = ix2 p k' :=
    funext fun a => Fin.ext (by match a with | ⟨0, _⟩ => rfl | ⟨1, _⟩ => rfl)
  have er : idx_main_v25 (ridx_main_v26 (ix2 p k) k') = ix2 k k' :=
    funext fun a => Fin.ext (by match a with | ⟨0, _⟩ => rfl | ⟨1, _⟩ => rfl)
  rw [el, val_main_v25_apply, er, pred_read]

/-- THE REFERENCE IS THE SPECIFICATION: its result array is `outR` of the ten argument arrays. -/
theorem ref_out :
    val_main_v35 (F := Ideal) x0 x1 x2 x3 x4 x5 x6 x7 x8 x9 = outR x0 x1 x2 x3 x4 x5 x6 x7 x8 x9 := by
  funext i
  obtain ⟨p, q, rfl⟩ : ∃ (p : Fin 512) (q : Fin 256), i = ix2 p q := ⟨i 0, i 1, eq_ix2 i⟩
  show _ = outOf (fun k k' => x6 (ix2 k k')) (fun k => x7 (ix1 k)) (fun o k => x8 (ix2 o k)) (fun o => x9 (ix1 o))
    (predRA x0 x1 x2 x3 x4 x5) p q
  have e34 : idx_main_v33 (idx_main_v34 (ix2 p q)) = ix1 q :=
    funext fun a => Fin.ext (by match a with | ⟨0, _⟩ => rfl)
  rw [val_main_v35_apply, val_main_v32_apply, val_main_v34_apply, val_main_v33_apply, e34, Ideal.addf_def]
  unfold outOf
  refine congrArg (· + x9 (ix1 q)) (Finset.sum_congr rfl fun k _ => ?_)
  have el : lidx_main_v32 (ix2 p q) k = ix2 p k :=
    funext fun a => Fin.ext (by match a with | ⟨0, _⟩ => rfl | ⟨1, _⟩ => rfl)
  have er : idx_main_v31 (ridx_main_v32 (ix2 p q) k) = ix2 q k :=
    funext fun a => Fin.ext (by match a with | ⟨0, _⟩ => rfl | ⟨1, _⟩ => rfl)
  rw [el, val_main_v31_apply, er, dense1_read]

end Cert.RefRead

end
-- ==== Proof.BodyPieces.lean ====
/-
  What one visit of the kernel body leaves behind, as pure functions of what it loaded.

  The body keeps a [64, 256] accumulator between visits.  At the first sender tile it stores zeros into the
  accumulator and then adds the tile's partial sum; at every later tile it adds the tile's partial sum to what
  the visit before left; at the last tile it also computes the two dense layers from the finished accumulator
  and stores the result block.  The frame names these contents through the stores the run found; each is the
  corresponding payload (`k0_pay2`: accumulator plus partial sum; `k0_pay3`: the dense layers) of the
  blocks the visit was handed, because every load and store covers its whole buffer.
-/
import proofs.«119894_j1580547967222_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.BodyPieces

open Cert.KernelIdeal Cert.KernelIdeal.Gen

variable {F : FTy → Type} [FloatOps F]

theorem hz : (![0, 0] : Fin 2 → Nat) = fun _ => 0 := funext fun a => by fin_cases a <;> rfl

/-- A middle tile: the accumulator ends at what it held plus the tile's partial sum. -/
theorem scratch_B (c : Dev nD) (i : grid0.Coords) (arg2 : Memref sig .tc .vmem S128x256 .f32) (harg2 : arg2.IsWhole) (arg3 : Memref sig .tc .vmem S64x256 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S64x256 .f32) (harg13 : arg13.IsWhole) (arg14 : Memref sig .tc .vmem S64x256 .f32) (harg14 : arg14.IsWhole) (hc0 : ¬cond0_0 i) (hc1 : ¬cond0_1 i)
    (x0 : Vec F S128x256 .f32) (x1 : Vec F S64x256 .f32) (x2 : Vec F S64x128 .f32) (x3 : Vec F S64x1 .f32) (x4 : Vec F S1x256 .f32) (x5 : Vec F S256x256 .bf16) (x6 : Vec F S1x256 .f32) (x7 : Vec F S256x256 .bf16) (x8 : Vec F S1x256 .f32) (x9 : Vec F S256x256 .bf16) (x10 : Vec F S1x256 .f32) (xs0 : Vec F S64x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay2 x0 x1 x4 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S128x256) hz, View.ld_unit_zero (S := S64x256) hz, View.ld_unit_zero (S := S64x128) hz, View.ld_unit_zero (S := S64x1) hz, View.ld_unit_zero (S := S1x256) hz, View.ld_unit_zero (S := S256x256) hz]

/-- The first tile: the accumulator is zeroed, read back, and ends at zero plus the tile's partial sum. -/
theorem scratch_A (c : Dev nD) (i : grid0.Coords) (arg2 : Memref sig .tc .vmem S128x256 .f32) (harg2 : arg2.IsWhole) (arg3 : Memref sig .tc .vmem S64x256 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S64x256 .f32) (harg13 : arg13.IsWhole) (arg14 : Memref sig .tc .vmem S64x256 .f32) (harg14 : arg14.IsWhole) (hc0 : cond0_0 i) (hc1 : ¬cond0_1 i)
    (x0 : Vec F S128x256 .f32) (x1 : Vec F S64x256 .f32) (x2 : Vec F S64x128 .f32) (x3 : Vec F S64x1 .f32) (x4 : Vec F S1x256 .f32) (x5 : Vec F S256x256 .bf16) (x6 : Vec F S1x256 .f32) (x7 : Vec F S256x256 .bf16) (x8 : Vec F S1x256 .f32) (x9 : Vec F S256x256 .bf16) (x10 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 = k0_pay2 x0 x1 x4 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  sl_unfold_words
  rw [View.canon_cons_unit_zero (S := S64x256) hz, View.readCov_unit_zero (S := S64x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S128x256) hz, View.ld_unit_zero (S := S64x256) hz, View.ld_unit_zero (S := S64x128) hz, View.ld_unit_zero (S := S64x1) hz, View.ld_unit_zero (S := S1x256) hz, View.ld_unit_zero (S := S256x256) hz]

/-- The last tile leaves the accumulator as a middle tile does. -/
theorem scratch_C (c : Dev nD) (i : grid0.Coords) (arg2 : Memref sig .tc .vmem S128x256 .f32) (harg2 : arg2.IsWhole) (arg3 : Memref sig .tc .vmem S64x256 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S64x256 .f32) (harg13 : arg13.IsWhole) (arg14 : Memref sig .tc .vmem S64x256 .f32) (harg14 : arg14.IsWhole) (hc0 : ¬cond0_0 i) (hc1 : cond0_1 i)
    (x0 : Vec F S128x256 .f32) (x1 : Vec F S64x256 .f32) (x2 : Vec F S64x128 .f32) (x3 : Vec F S64x1 .f32) (x4 : Vec F S1x256 .f32) (x5 : Vec F S256x256 .bf16) (x6 : Vec F S1x256 .f32) (x7 : Vec F S256x256 .bf16) (x8 : Vec F S1x256 .f32) (x9 : Vec F S256x256 .bf16) (x10 : Vec F S1x256 .f32) (xs0 : Vec F S64x256 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay2 x0 x1 x4 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S128x256) hz, View.ld_unit_zero (S := S64x256) hz, View.ld_unit_zero (S := S64x128) hz, View.ld_unit_zero (S := S64x1) hz, View.ld_unit_zero (S := S1x256) hz, View.ld_unit_zero (S := S256x256) hz]

/-- The last tile stores, as the result block, the dense layers of the finished accumulator. -/
theorem out_C (c : Dev nD) (i : grid0.Coords) (arg2 : Memref sig .tc .vmem S128x256 .f32) (harg2 : arg2.IsWhole) (arg3 : Memref sig .tc .vmem S64x256 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S64x256 .f32) (harg13 : arg13.IsWhole) (arg14 : Memref sig .tc .vmem S64x256 .f32) (harg14 : arg14.IsWhole) (hc0 : ¬cond0_0 i) (hc1 : cond0_1 i)
    (x0 : Vec F S128x256 .f32) (x1 : Vec F S64x256 .f32) (x2 : Vec F S64x128 .f32) (x3 : Vec F S64x1 .f32) (x4 : Vec F S1x256 .f32) (x5 : Vec F S256x256 .bf16) (x6 : Vec F S1x256 .f32) (x7 : Vec F S256x256 .bf16) (x8 : Vec F S1x256 .f32) (x9 : Vec F S256x256 .bf16) (x10 : Vec F S1x256 .f32) (xs0 : Vec F S64x256 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay3 (k0_pay2 x0 x1 x4 x2 xs0) x3 x6 x5 x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_C
  dsimp only
  sl_unfold_words
  rw [View.canon_unit_zero hz, View.readCov_unit_zero (S := S64x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, View.ld_unit_zero (S := S128x256) hz, View.ld_unit_zero (S := S64x256) hz, View.ld_unit_zero (S := S64x128) hz, View.ld_unit_zero (S := S64x1) hz, View.ld_unit_zero (S := S1x256) hz, View.ld_unit_zero (S := S256x256) hz]

end Cert.BodyPieces

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.BodyRead.lean ====
/-
  The kernel body's arithmetic, read one entry at a time at the ideal values.

  `tile_step`: one visit adds to the accumulator entry (r, c) the partial sum over the visit's 128 senders l of
      adj (r, l) · max (pa (l, c) + pb (r, c) + b1 c) 0.
  `dense_tail`: the last visit's result entry (r, o) is the two dense layers applied to the row's `pred`,
      pred k' = ((Σ_h acc (r, h) · W2 (k', h)) + rs r · b2 k') · 2⁻⁹,
  every product against a weight matrix being a contraction with the matrix transposed, and every change of
  float format the identity.
-/
import proofs.«119894_j1580547967222_2_alg».proof.Proof.Gen.KernelIdeal.Skeleton
import proofs.«119894_j1580547967222_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.BodyRead

open Cert.KernelIdeal Cert.KernelIdeal.Gen Idealize.ShloMosaic Idealize.ShloMosaic.ValueIdx

variable {α : Type}

/-! ## Broadcasts and casts of the body's shapes, read at an index -/

/-- The sender tile [1, 128, 256] repeated over the 64 receivers. -/
theorem bcast_senders (v : S1x128x256.Idx → α) (h : S1x128x256.Broadcasts S64x128x256) (r : Fin 64) (l : Fin 128) (c : Fin 256) :
    broadcastTo S64x128x256 v h (ix3 r l c) = v (ix3 (0 : Fin 1) l c) :=
  broadcastTo_apply v h (ix3 r l c) (ix3 (0 : Fin 1) l c) fun a => match a with
    | ⟨0, _⟩ => by show 0 = if (1 : Nat) = 1 then 0 else r.val; rw [if_pos rfl]
    | ⟨1, _⟩ => by show l.val = if (128 : Nat) = 1 then 0 else l.val; rw [if_neg (by decide)]
    | ⟨2, _⟩ => by show c.val = if (256 : Nat) = 1 then 0 else c.val; rw [if_neg (by decide)]

/-- The receiver block [64, 1, 256] repeated over the 128 senders. -/
theorem bcast_receivers (v : S64x1x256.Idx → α) (h : S64x1x256.Broadcasts S64x128x256) (r : Fin 64) (l : Fin 128) (c : Fin 256) :
    broadcastTo S64x128x256 v h (ix3 r l c) = v (ix3 r (0 : Fin 1) c) :=
  broadcastTo_apply v h (ix3 r l c) (ix3 r (0 : Fin 1) c) fun a => match a with
    | ⟨0, _⟩ => by show r.val = if (64 : Nat) = 1 then 0 else r.val; rw [if_neg (by decide)]
    | ⟨1, _⟩ => by show 0 = if (1 : Nat) = 1 then 0 else l.val; rw [if_pos rfl]
    | ⟨2, _⟩ => by show c.val = if (256 : Nat) = 1 then 0 else c.val; rw [if_neg (by decide)]

/-- The bias row [1, 1, 256] repeated over receivers and senders. -/
theorem bcast_bias (v : S1x1x256.Idx → α) (h : S1x1x256.Broadcasts S64x128x256) (r : Fin 64) (l : Fin 128) (c : Fin 256) :
    broadcastTo S64x128x256 v h (ix3 r l c) = v (ix3 (0 : Fin 1) (0 : Fin 1) c) :=
  broadcastTo_apply v h (ix3 r l c) (ix3 (0 : Fin 1) (0 : Fin 1) c) fun a => match a with
    | ⟨0, _⟩ => by show 0 = if (1 : Nat) = 1 then 0 else r.val; rw [if_pos rfl]
    | ⟨1, _⟩ => by show 0 = if (1 : Nat) = 1 then 0 else l.val; rw [if_pos rfl]
    | ⟨2, _⟩ => by show c.val = if (256 : Nat) = 1 then 0 else c.val; rw [if_neg (by decide)]

/-- The adjacency tile [64, 128, 1] repeated over the 256 channels. -/
theorem bcast_weights (v : S64x128x1.Idx → α) (h : S64x128x1.Broadcasts S64x128x256) (r : Fin 64) (l : Fin 128) (c : Fin 256) :
    broadcastTo S64x128x256 v h (ix3 r l c) = v (ix3 r l (0 : Fin 1)) :=
  broadcastTo_apply v h (ix3 r l c) (ix3 r l (0 : Fin 1)) fun a => match a with
    | ⟨0, _⟩ => by show r.val = if (64 : Nat) = 1 then 0 else r.val; rw [if_neg (by decide)]
    | ⟨1, _⟩ => by show l.val = if (128 : Nat) = 1 then 0 else l.val; rw [if_neg (by decide)]
    | ⟨2, _⟩ => by show 0 = if (1 : Nat) = 1 then 0 else c.val; rw [if_pos rfl]

/-- A [64, 1] column repeated over the 256 channels. -/
theorem bcast_column (v : S64x1.Idx → α) (h : S64x1.Broadcasts S64x256) (r : Fin 64) (c : Fin 256) :
    broadcastTo S64x256 v h (ix2 r c) = v (ix2 r (0 : Fin 1)) :=
  broadcastTo_apply v h (ix2 r c) (ix2 r (0 : Fin 1)) fun a => match a with
    | ⟨0, _⟩ => by show r.val = if (64 : Nat) = 1 then 0 else r.val; rw [if_neg (by decide)]
    | ⟨1, _⟩ => by show 0 = if (1 : Nat) = 1 then 0 else c.val; rw [if_pos rfl]

/-- [64, 256] viewed as [64, 1, 256]. -/
theorem cast_receivers (x : S64x256.Idx → α) (h : S64x256.ShapeCasts S64x1x256) (r : Fin 64) (u : Fin 1) (c : Fin 256) :
    shapeCast S64x1x256 x h (ix3 r u c) = x (ix2 r c) :=
  shapeCast_apply x h (ix3 r u c) (ix2 r c) (by
    have hu : u.val = 0 := by omega
    rw [Shape.rowMajor_val_three, Shape.rowMajor_val_two]
    show r.val * 256 + c.val = (r.val * 1 + u.val) * 256 + c.val
    rw [hu]; omega)

/-- [64, 128] viewed as [64, 128, 1]. -/
theorem cast_weights (x : S64x128.Idx → α) (h : S64x128.ShapeCasts S64x128x1) (r : Fin 64) (l : Fin 128) (u : Fin 1) :
    shapeCast S64x128x1 x h (ix3 r l u) = x (ix2 r l) :=
  shapeCast_apply x h (ix3 r l u) (ix2 r l) (by
    have hu : u.val = 0 := by omega
    rw [Shape.rowMajor_val_three, Shape.rowMajor_val_two]
    show r.val * 128 + l.val = (r.val * 128 + l.val) * 1 + u.val
    rw [hu]; omega)

/-! ## The sum over a tile's senders -/

/-- The reduction over the middle axis of a [64, 128, 256] array, at (r, c), is the sum over the 128 senders. -/
theorem tile_sum (src : FVec Ideal S64x128x256 .f32) (hφ : FKind.Formats .f32)
    (hacc : (0x00000000#32 : BitVec 32) = FKind.add.neutral .f32 hφ) (r : Fin 64) (c : Fin 256) :
    multiReduction .add [1] S64x256 src 0x00000000#32 reduces_S64x128x256_S64x256 hφ hacc (ix2 r c)
      = ∑ l : Fin 128, src (ix3 r l c) :=
  (Ideal.multiReduction_add_single src 0x00000000#32 reduces_S64x128x256_S64x256 hφ hacc (ix2 r c)).trans
    (Finset.sum_congr rfl fun l _ => congrArg src (funext fun a => Fin.ext (by
      match a with
      | ⟨0, _⟩ => rfl
      | ⟨1, _⟩ => rfl
      | ⟨2, _⟩ => rfl)))

/-- One visit: the accumulator entry grows by the tile's weighted sum of edge features. -/
theorem tile_step (pa : Vec Ideal S128x256 .f32) (pb : Vec Ideal S64x256 .f32) (b1 : Vec Ideal S1x256 .f32)
    (adj : Vec Ideal S64x128 .f32) (acc : Vec Ideal S64x256 .f32) (r : Fin 64) (c : Fin 256) :
    k0_pay2 (F := Ideal) pa pb b1 adj acc (ix2 r c)
      = acc (ix2 r c) + ∑ l : Fin 128, adj (ix2 r l) * max (pa (ix2 l c) + pb (ix2 r c) + b1 (ix2 (0 : Fin 1) c)) 0 := by
  unfold k0_pay2
  simp only [shapeCast_self]
  refine congrArg (acc (ix2 r c) + ·) ?_
  refine (tile_sum _ _ _ r c).trans (Finset.sum_congr rfl fun l _ => ?_)
  simp only [mulf_apply, maximumf_apply, addf_apply, broadcast_apply, bcast_weights, cast_weights, bcast_senders,
    shapeCast_ab_1ab_apply, bcast_receivers, cast_receivers, bcast_bias, Ideal.ofBits_def, Ideal.ofBits_zero_f32]

/-! ## The dense layers -/

/-- The printed dimension numbers of the body's three products are those of a plain 64×256 by 256×256 product. -/
theorem dot_plain : dot_S64x256_S256x256_S64x256_1_0_0_1_n_n = DotDims.plain 64 256 256 := rfl

/-- A row block times a weight matrix transposed, into a zero accumulator: entry (r, k) contracts the block's row
    with the matrix's row k. -/
theorem dense_apply {φ ψ : FTy} (x : FVec Ideal S64x256 φ) (W : FVec Ideal S256x256 ψ)
    (hT : S256x256.Transposes [1, 0] S256x256) (r : Fin 64) (k : Fin 256) :
    matmul dot_S64x256_S256x256_S64x256_1_0_0_1_n_n none x (transpose S256x256 [1, 0] W hT)
        (constant S64x256 .f32 0x00000000#32) (ix2 r k)
      = ∑ h : Fin 256, x (ix2 r h) * W (ix2 k h) := by
  rw [dot_plain]
  refine (Cert.Lib.PlainDot.matmul_zero_apply 64 256 256 none x _ (ix2 r k)).trans ?_
  exact Finset.sum_congr rfl fun h _ => congrArg (x (ix2 r h) * ·) (transpose_ix2_apply W hT h k)

/-- The last visit's result entry: the two dense layers of the row's `pred`. -/
theorem dense_tail (acc : Vec Ideal S64x256 .f32) (rs : Vec Ideal S64x1 .f32) (b2 : Vec Ideal S1x256 .f32)
    (W2 : Vec Ideal S256x256 .bf16) (Wo1 : Vec Ideal S256x256 .bf16) (bo1 : Vec Ideal S1x256 .f32)
    (Wo2 : Vec Ideal S256x256 .bf16) (bo2 : Vec Ideal S1x256 .f32) (r : Fin 64) (o : Fin 256) :
    k0_pay3 (F := Ideal) acc rs b2 W2 Wo1 bo1 Wo2 bo2 (ix2 r o)
      = (∑ k : Fin 256, max ((∑ k' : Fin 256,
            (((∑ h : Fin 256, acc (ix2 r h) * W2 (ix2 k' h)) + rs (ix2 r (0 : Fin 1)) * b2 (ix2 (0 : Fin 1) k'))
              * Ideal.ofBits .f32 0x3B000000#32) * Wo1 (ix2 k k')) + bo1 (ix2 (0 : Fin 1) k)) 0 * Wo2 (ix2 o k))
        + bo2 (ix2 (0 : Fin 1) o) := by
  unfold k0_pay3
  simp only [shapeCast_self]
  -- the output layer: a contraction with Wo2's row o, plus the bias
  refine (addf_apply _ _ _).trans ?_
  refine congrArg₂ (· + ·) ?_ (broadcastTo_1b_ab_apply bo2 _ r o)
  refine (dense_apply _ Wo2 _ r o).trans (Finset.sum_congr rfl fun k _ => congrArg (· * Wo2 (ix2 o k)) ?_)
  -- the hidden layer at (r, k): max of a contraction with Wo1's row k plus the bias, and zero
  simp only [truncf_apply, maximumf_apply, addf_apply, broadcast_apply, broadcastTo_1b_ab_apply, Ideal.ofBits_def,
    Ideal.ofBits_zero_f32]
  refine congrArg (max · 0) (congrArg (· + bo1 (ix2 (0 : Fin 1) k)) ?_)
  refine (dense_apply _ Wo1 _ r k).trans (Finset.sum_congr rfl fun k' _ => congrArg (· * Wo1 (ix2 k k')) ?_)
  -- pred at (r, k'): the contraction with W2's row k' plus the row sum times the bias, scaled
  simp only [truncf_apply, mulf_apply, addf_apply, broadcast_apply, broadcastTo_1b_ab_apply, bcast_column, Ideal.ofBits_def]
  refine congrArg (· * Ideal.ofBits .f32 0x3B000000#32) (congrArg (· + rs (ix2 r (0 : Fin 1)) * b2 (ix2 (0 : Fin 1) k')) ?_)
  refine (dense_apply _ W2 _ r k').trans (Finset.sum_congr rfl fun h _ => ?_)
  simp only [truncf_apply]

end Cert.BodyRead

end
-- ==== Proof.Blocks.lean ====
/-
  Where each block of the pipeline sits in its array.

  The grid has 32 points, point t = 4·i + j for receiver block i < 8 (64 rows) and sender tile j < 4
  (128 rows).  At point t the body is handed rows 128·j … of the sender projections, rows 64·i … of the
  receiver projections and of the row sums, the [64, 128] tile (64·i …, 128·j …) of the adjacency, and the
  whole of every bias and weight matrix; the result block is rows 64·i … of the result, written back at
  the last sender tile (j = 3).  The index maps are decided once over the 32 points; a block's coordinate is
  its index times the block's extent plus the coordinate inside the block.  The eight result blocks written
  back cover the result array.
-/
import proofs.«119894_j1580547967222_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen

variable {F : FTy → Type} [FloatOps F]
variable (m : (ℓ : Loc nD τ sig) → Buf (Elt F) ℓ)

/-- The index maps of the windows that move, at every point. -/
theorem idx_facts : ∀ t : Fin cfg0.N,
    win0_0.index t (0 : Fin 2) = t.val % 4 ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = 0
    ∧ win0_11.index t (0 : Fin 2) = t.val / 4 ∧ win0_11.index t (1 : Fin 2) = 0 :=
  (by decide +kernel : ∀ t : Fin grid0.N, _)

/-- The windows over a whole array never move. -/
theorem idx_const : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The blocks that move -/

/-- The sender projections: block t is rows 128·(t mod 4) … . -/
theorem blk_pa (c : Dev nD) (t : Fin cfg0.N) (l : Fin 128) (h : Fin 256) (R : Fin 512) (hR : R.val = 128 * (t.val % 4) + l.val) :
    (iblk m c 0 t : Vec F S128x256 .f32) (ix2 l h) = (V m c main_v3 : S512x256.Idx → F .f32) (ix2 R h) := by
  obtain ⟨e0, e1, -⟩ := idx_facts t
  unfold iblk
  rw [View.read_apply]
  show V m c main_v3 (((cfg0.win 0).blk t).view.emb (ix2 l h)) = V m c main_v3 (ix2 R h)
  refine congrArg (V m c main_v3) (funext fun a => Fin.ext ?_)
  match a with
  | ⟨0, _⟩ => show win0_0.index t (0 : Fin 2) * 128 + 1 * l.val = R.val; rw [e0, hR]; omega
  | ⟨1, _⟩ => show win0_0.index t (1 : Fin 2) * 256 + 1 * h.val = h.val; rw [e1]; omega

/-- The receiver projections: block t is rows 64·(t div 4) … . -/
theorem blk_pb (c : Dev nD) (t : Fin cfg0.N) (r : Fin 64) (h : Fin 256) (R : Fin 512) (hR : R.val = 64 * (t.val / 4) + r.val) :
    (iblk m c 1 t : Vec F S64x256 .f32) (ix2 r h) = (V m c main_v5 : S512x256.Idx → F .f32) (ix2 R h) := by
  obtain ⟨-, -, e0, e1, -⟩ := idx_facts t
  unfold iblk
  rw [View.read_apply]
  show V m c main_v5 (((cfg0.win 1).blk t).view.emb (ix2 r h)) = V m c main_v5 (ix2 R h)
  refine congrArg (V m c main_v5) (funext fun a => Fin.ext ?_)
  match a with
  | ⟨0, _⟩ => show win0_1.index t (0 : Fin 2) * 64 + 1 * r.val = R.val; rw [e0, hR]; omega
  | ⟨1, _⟩ => show win0_1.index t (1 : Fin 2) * 256 + 1 * h.val = h.val; rw [e1]; omega

/-- The adjacency: block t is the tile (64·(t div 4) …, 128·(t mod 4) …). -/
theorem blk_adj (c : Dev nD) (t : Fin cfg0.N) (r : Fin 64) (l : Fin 128) (R J : Fin 512)
    (hR : R.val = 64 * (t.val / 4) + r.val) (hJ : J.val = 128 * (t.val % 4) + l.val) :
    (iblk m c 2 t : Vec F S64x128 .f32) (ix2 r l) = (V m c main_arg1 : S512x512.Idx → F .f32) (ix2 R J) := by
  obtain ⟨-, -, -, -, e0, e1, -⟩ := idx_facts t
  unfold iblk
  rw [View.read_apply]
  show V m c main_arg1 (((cfg0.win 2).blk t).view.emb (ix2 r l)) = V m c main_arg1 (ix2 R J)
  refine congrArg (V m c main_arg1) (funext fun a => Fin.ext ?_)
  match a with
  | ⟨0, _⟩ => show win0_2.index t (0 : Fin 2) * 64 + 1 * r.val = R.val; rw [e0, hR]; omega
  | ⟨1, _⟩ => show win0_2.index t (1 : Fin 2) * 128 + 1 * l.val = J.val; rw [e1, hJ]; omega

/-- The row sums: block t is rows 64·(t div 4) … of the [512, 1] column. -/
theorem blk_rs (c : Dev nD) (t : Fin cfg0.N) (r : Fin 64) (u : Fin 1) (R : Fin 512) (hR : R.val = 64 * (t.val / 4) + r.val) :
    (iblk m c 3 t : Vec F S64x1 .f32) (ix2 r u) = (V m c main_v7 : S512x1.Idx → F .f32) (ix2 R u) := by
  obtain ⟨-, -, -, -, -, -, e0, e1, -⟩ := idx_facts t
  unfold iblk
  rw [View.read_apply]
  show V m c main_v7 (((cfg0.win 3).blk t).view.emb (ix2 r u)) = V m c main_v7 (ix2 R u)
  refine congrArg (V m c main_v7) (funext fun a => Fin.ext ?_)
  match a with
  | ⟨0, _⟩ => show win0_3.index t (0 : Fin 2) * 64 + 1 * r.val = R.val; rw [e0, hR]; omega
  | ⟨1, _⟩ => show win0_3.index t (1 : Fin 2) * 1 + 1 * u.val = u.val; rw [e1]; omega

/-! ## The blocks that are whole arrays -/

/-- The first bias row. -/
theorem blk_b1 (c : Dev nD) (t : Fin cfg0.N) (p : Fin 1) (q : Fin 256) :
    (iblk m c 4 t : Vec F S1x256 .f32) (ix2 p q) = (V m c main_v8 : S1x256.Idx → F .f32) (ix2 p q) := by
  have e := idx_const t
  unfold iblk
  rw [View.read_apply]
  show V m c main_v8 (((cfg0.win 4).blk t).view.emb (ix2 p q)) = V m c main_v8 (ix2 p q)
  refine congrArg (V m c main_v8) (funext fun a => Fin.ext ?_)
  match a with
  | ⟨0, _⟩ => show win0_4.index t (0 : Fin 2) * 1 + 1 * p.val = p.val; have := e; omega
  | ⟨1, _⟩ => show win0_4.index t (1 : Fin 2) * 256 + 1 * q.val = q.val; have := e; omega

/-- The edge layer's second weight matrix. -/
theorem blk_W2 (c : Dev nD) (t : Fin cfg0.N) (p : Fin 256) (q : Fin 256) :
    (iblk m c 5 t : Vec F S256x256 .bf16) (ix2 p q) = (V m c main_v12 : S256x256.Idx → F .bf16) (ix2 p q) := by
  have e := idx_const t
  unfold iblk
  rw [View.read_apply]
  show V m c main_v12 (((cfg0.win 5).blk t).view.emb (ix2 p q)) = V m c main_v12 (ix2 p q)
  refine congrArg (V m c main_v12) (funext fun a => Fin.ext ?_)
  match a with
  | ⟨0, _⟩ => show win0_5.index t (0 : Fin 2) * 256 + 1 * p.val = p.val; have := e; omega
  | ⟨1, _⟩ => show win0_5.index t (1 : Fin 2) * 256 + 1 * q.val = q.val; have := e; omega

/-- The edge layer's second bias row. -/
theorem blk_b2 (c : Dev nD) (t : Fin cfg0.N) (p : Fin 1) (q : Fin 256) :
    (iblk m c 6 t : Vec F S1x256 .f32) (ix2 p q) = (V m c main_v9 : S1x256.Idx → F .f32) (ix2 p q) := by
  have e := idx_const t
  unfold iblk
  rw [View.read_apply]
  show V m c main_v9 (((cfg0.win 6).blk t).view.emb (ix2 p q)) = V m c main_v9 (ix2 p q)
  refine congrArg (V m c main_v9) (funext fun a => Fin.ext ?_)
  match a with
  | ⟨0, _⟩ => show win0_6.index t (0 : Fin 2) * 1 + 1 * p.val = p.val; have := e; omega
  | ⟨1, _⟩ => show win0_6.index t (1 : Fin 2) * 256 + 1 * q.val = q.val; have := e; omega

/-- The first dense layer's weight matrix. -/
theorem blk_Wo1 (c : Dev nD) (t : Fin cfg0.N) (p : Fin 256) (q : Fin 256) :
    (iblk m c 7 t : Vec F S256x256 .bf16) (ix2 p q) = (V m c main_v13 : S256x256.Idx → F .bf16) (ix2 p q) := by
  have e := idx_const t
  unfold iblk
  rw [View.read_apply]
  show V m c main_v13 (((cfg0.win 7).blk t).view.emb (ix2 p q)) = V m c main_v13 (ix2 p q)
  refine congrArg (V m c main_v13) (funext fun a => Fin.ext ?_)
  match a with
  | ⟨0, _⟩ => show win0_7.index t (0 : Fin 2) * 256 + 1 * p.val = p.val; have := e; omega
  | ⟨1, _⟩ => show win0_7.index t (1 : Fin 2) * 256 + 1 * q.val = q.val; have := e; omega

/-- The first dense layer's bias row. -/
theorem blk_bo1 (c : Dev nD) (t : Fin cfg0.N) (p : Fin 1) (q : Fin 256) :
    (iblk m c 8 t : Vec F S1x256 .f32) (ix2 p q) = (V m c main_v10 : S1x256.Idx → F .f32) (ix2 p q) := by
  have e := idx_const t
  unfold iblk
  rw [View.read_apply]
  show V m c main_v10 (((cfg0.win 8).blk t).view.emb (ix2 p q)) = V m c main_v10 (ix2 p q)
  refine congrArg (V m c main_v10) (funext fun a => Fin.ext ?_)
  match a with
  | ⟨0, _⟩ => show win0_8.index t (0 : Fin 2) * 1 + 1 * p.val = p.val; have := e; omega
  | ⟨1, _⟩ => show win0_8.index t (1 : Fin 2) * 256 + 1 * q.val = q.val; have := e; omega

/-- The second dense layer's weight matrix. -/
theorem blk_Wo2 (c : Dev nD) (t : Fin cfg0.N) (p : Fin 256) (q : Fin 256) :
    (iblk m c 9 t : Vec F S256x256 .bf16) (ix2 p q) = (V m c main_v14 : S256x256.Idx → F .bf16) (ix2 p q) := by
  have e := idx_const t
  unfold iblk
  rw [View.read_apply]
  show V m c main_v14 (((cfg0.win 9).blk t).view.emb (ix2 p q)) = V m c main_v14 (ix2 p q)
  refine congrArg (V m c main_v14) (funext fun a => Fin.ext ?_)
  match a with
  | ⟨0, _⟩ => show win0_9.index t (0 : Fin 2) * 256 + 1 * p.val = p.val; have := e; omega
  | ⟨1, _⟩ => show win0_9.index t (1 : Fin 2) * 256 + 1 * q.val = q.val; have := e; omega

/-- The second dense layer's bias row. -/
theorem blk_bo2 (c : Dev nD) (t : Fin cfg0.N) (p : Fin 1) (q : Fin 256) :
    (iblk m c 10 t : Vec F S1x256 .f32) (ix2 p q) = (V m c main_v11 : S1x256.Idx → F .f32) (ix2 p q) := by
  have e := idx_const t
  unfold iblk
  rw [View.read_apply]
  show V m c main_v11 (((cfg0.win 10).blk t).view.emb (ix2 p q)) = V m c main_v11 (ix2 p q)
  refine congrArg (V m c main_v11) (funext fun a => Fin.ext ?_)
  match a with
  | ⟨0, _⟩ => show win0_10.index t (0 : Fin 2) * 1 + 1 * p.val = p.val; have := e; omega
  | ⟨1, _⟩ => show win0_10.index t (1 : Fin 2) * 256 + 1 * q.val = q.val; have := e; omega

/-! ## The result blocks -/

/-- Entry (r, o) of result block t is entry (64·(t div 4) + r, o) of the result array. -/
theorem emb_out (t : Fin cfg0.N) (r : Fin 64) (o : Fin 256) (R : Fin 512) (hR : R.val = 64 * (t.val / 4) + r.val) :
    ((cfg0.win 11).blk t).view.emb (ix2 r o) = (ix2 R o : S512x256.Idx) := by
  obtain ⟨-, -, -, -, -, -, -, -, e0, e1⟩ := idx_facts t
  refine funext fun a => Fin.ext ?_
  match a with
  | ⟨0, _⟩ => show win0_11.index t (0 : Fin 2) * 64 + 1 * r.val = R.val; rw [e0, hR]; omega
  | ⟨1, _⟩ => show win0_11.index t (1 : Fin 2) * 256 + 1 * o.val = o.val; rw [e1]; omega

/-- An index of the result array is in block t iff each coordinate is in the block's range on its axis. -/
theorem mem_out (t : Fin cfg0.N) (i : S512x256.Idx) :
    i ∈ ((cfg0.win 11).blk t).view.set ↔ ∀ a : Fin 2, win0_11.index t a * S64x256.size a ≤ (i a).val ∧ (i a).val < win0_11.index t a * S64x256.size a + S64x256.size a := by
  show i ∈ ((View.whole main_v15).slice (win0_11.rect t)).set ↔ _
  rw [View.set_slice_whole, Rect.mem_set_unit]
  exact Iff.rfl

/-- Every index of the result array lies in the block some last-tile point writes back: row R is in receiver
    block R div 64, written back at point 4·(R div 64) + 3. -/
theorem cover_out (i : S512x256.Idx) :
    ∃ t : Fin cfg0.N, (cfg0.win 11).flush t = true ∧ i ∈ ((cfg0.win 11).blk t).view.set := by
  have hi0 : (i 0).val < 512 := (i 0).isLt
  have hi1 : (i 1).val < 256 := (i 1).isLt
  have hN : cfg0.N = 32 := N_0
  let t : Fin cfg0.N := ⟨4 * ((i 0).val / 64) + 3, by rw [hN]; omega⟩
  have ht : t.val = 4 * ((i 0).val / 64) + 3 := rfl
  obtain ⟨-, -, -, -, -, -, -, -, e0, e1⟩ := idx_facts t
  refine ⟨t, (flush0_11 t).mpr (by rw [ht]; omega), ?_⟩
  rw [mem_out]
  intro a
  match a with
  | ⟨0, _⟩ =>
    show win0_11.index t (0 : Fin 2) * 64 ≤ (i 0).val ∧ (i 0).val < win0_11.index t (0 : Fin 2) * 64 + 64
    rw [e0, ht]; omega
  | ⟨1, _⟩ =>
    show win0_11.index t (1 : Fin 2) * 256 ≤ (i 1).val ∧ (i 1).val < win0_11.index t (1 : Fin 2) * 256 + 256
    rw [e1]; omega

end Cert.Blocks

end
-- ==== Proof.Accumulate.lean ====
/-
  The accumulator the body carries from one sender tile to the next.

  Within a receiver block the four visits j = 0, 1, 2, 3 leave in the [64, 256] accumulator: zero plus
  the first tile's partial sum, then each later tile's partial sum added to what the visit before left.
  So after the visit at point t the accumulator holds, entry by entry, the zero block plus the sum of the
  partial sums of the points 4·(t div 4) … t — the fold of the run from its last reset, opened at an index.
-/
import proofs.«119894_j1580547967222_2_alg».proof.Proof.Gen.KernelIdeal.Value
import proofs.«119894_j1580547967222_2_alg».proof.Proof.BodyPieces
import proofs.«119894_j1580547967222_2_alg».proof.Proof.BodyRead
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Accumulate

open Cert.KernelIdeal Cert.KernelIdeal.Gen Cert.KernelIdeal.Value

variable (m : (ℓ : Loc nD τ sig) → Buf (Elt Ideal) ℓ)

/-- The update of the accumulator is additive in what it held: the new entry is the old entry plus the tile's
    partial sum, which is the update of a zero accumulator. -/
theorem pay2_add (pa : Vec Ideal S128x256 .f32) (pb : Vec Ideal S64x256 .f32) (b1 : Vec Ideal S1x256 .f32)
    (adj : Vec Ideal S64x128 .f32) (acc : Vec Ideal S64x256 .f32) (i : S64x256.Idx) :
    k0_pay2 (F := Ideal) pa pb b1 adj acc i = acc i + k0_pay2 (F := Ideal) pa pb b1 adj (fun _ => 0) i := by
  obtain ⟨r, c, rfl⟩ : ∃ (r : Fin 64) (c : Fin 256), i = ix2 r c := ⟨i 0, i 1, eq_ix2 i⟩
  rw [Cert.BodyRead.tile_step, Cert.BodyRead.tile_step, zero_add]

/-- The partial sum of the tile visited at point `n` (zero past the grid, where it is never used). -/
def part (c : Dev nD) (n : ℕ) : S64x256.Idx → EReal := fun i =>
  if hb : n < cfg0.N then
    k0_pay2 (F := Ideal) (iblk m c 0 (⟨n, hb⟩ : Fin cfg0.N)) (iblk m c 1 (⟨n, hb⟩ : Fin cfg0.N)) (iblk m c 4 (⟨n, hb⟩ : Fin cfg0.N)) (iblk m c 2 (⟨n, hb⟩ : Fin cfg0.N)) (fun _ => 0) i
  else 0

/-- At a first tile the accumulator is left at the zero block plus the tile's partial sum, whatever it held. -/
theorem sc_first (c : Dev nD) (n : ℕ) (hb : n < cfg0.N) (h0 : n % 4 = 0) (acc : Vec Ideal S64x256 .f32) :
    scAt0_0 m c n hb acc
      = k0_pay2 (F := Ideal) (iblk m c 0 (⟨n, hb⟩ : Fin cfg0.N)) (iblk m c 1 (⟨n, hb⟩ : Fin cfg0.N)) (iblk m c 4 (⟨n, hb⟩ : Fin cfg0.N)) (iblk m c 2 (⟨n, hb⟩ : Fin cfg0.N)) (k0_pay1 (F := Ideal)) := by
  have h1 : ¬n % 4 = 3 := by omega
  unfold scAt0_0
  rw [dif_pos h0, dif_neg h1]
  exact Cert.BodyPieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))

/-- At a later tile the accumulator is left at what it held plus the tile's partial sum. -/
theorem sc_later (c : Dev nD) (n : ℕ) (hb : n < cfg0.N) (h0 : ¬n % 4 = 0) (acc : Vec Ideal S64x256 .f32) :
    scAt0_0 m c n hb acc
      = k0_pay2 (F := Ideal) (iblk m c 0 (⟨n, hb⟩ : Fin cfg0.N)) (iblk m c 1 (⟨n, hb⟩ : Fin cfg0.N)) (iblk m c 4 (⟨n, hb⟩ : Fin cfg0.N)) (iblk m c 2 (⟨n, hb⟩ : Fin cfg0.N)) acc := by
  unfold scAt0_0
  by_cases h1 : n % 4 = 3
  · rw [dif_neg h0, dif_pos h1]
    exact Cert.BodyPieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc
  · rw [dif_neg h0, dif_neg h1]
    exact Cert.BodyPieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc

/-- THE ACCUMULATOR after point `t`, at an entry: the zero block's entry plus the partial sums of the points of
    the run so far. -/
theorem scratch_fold (c : Dev nD) (t : Fin cfg0.N) (i : S64x256.Idx) :
    (outsAt0 m c t.val t.isLt).2 i
      = k0_pay1 (F := Ideal) i + ∑ s ∈ Finset.range (t.val % 4 + 1), part m c (4 * (t.val / 4) + s) i := by
  rw [soutsAt0_0_eq m c t]
  refine Pipeline.accAt_add_apply (ι := S64x256.Idx) (β := EReal) _ _ (k0_pay1 (F := Ideal)) (part m c) (4 * (t.val / 4)) 3
    (fun h i => ?_) (fun n h acc i hlt hle => ?_) (t.val % 4) (by omega) _ i
  · show scAt0_0 m c (4 * (t.val / 4)) h _ i = _
    rw [sc_first m c _ h (by omega), pay2_add]
    unfold part
    rw [dif_pos h]
  · rw [sc_later m c n h (by omega) acc, pay2_add]
    unfold part
    rw [dif_pos h]

end Cert.Accumulate

end
-- ==== Proof.HostGlue.lean ====
/-
  What the region finds: the operands the host operations prepare before the kernel's one region, read at
  an index.

  Before the region the program forms, from the ten argument arrays: the two halves of the first linear
  map, x · Waᵀ and x · Wbᵀ (Wa the left and Wb the right half of W1's columns); the row sums of the
  adjacency weights as a column; the four bias vectors as rows; and the three remaining weight matrices
  in a narrower float format, which on the extended reals is no change at all.
-/
import proofs.«119894_j1580547967222_2_alg».proof.Proof.Gen.KernelIdeal.Frame
import proofs.«119894_j1580547967222_2_alg».proof.Proof.EdgeMean
import proofs.«119894_j1580547967222_2_alg».proof.Proof.LibPlainDot
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.HostGlue

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ) (c : Dev nD)

/-! ## The ten argument arrays -/

abbrev a0 : FVec Ideal S512x128 .f32 := m ((c : Thread nD τ).loc main_arg0)
abbrev a1 : FVec Ideal S512x512 .f32 := m ((c : Thread nD τ).loc main_arg1)
abbrev a2 : FVec Ideal S256x256 .f32 := m ((c : Thread nD τ).loc main_arg2)
abbrev a3 : FVec Ideal S256 .f32 := m ((c : Thread nD τ).loc main_arg3)
abbrev a4 : FVec Ideal S256x256 .f32 := m ((c : Thread nD τ).loc main_arg4)
abbrev a5 : FVec Ideal S256 .f32 := m ((c : Thread nD τ).loc main_arg5)
abbrev a6 : FVec Ideal S256x256 .f32 := m ((c : Thread nD τ).loc main_arg6)
abbrev a7 : FVec Ideal S256 .f32 := m ((c : Thread nD τ).loc main_arg7)
abbrev a8 : FVec Ideal S256x256 .f32 := m ((c : Thread nD τ).loc main_arg8)
abbrev a9 : FVec Ideal S256 .f32 := m ((c : Thread nD τ).loc main_arg9)

/-! ## Each operand as the operations' term over the arguments -/

/-- x · Waᵀ, as computed: the product of x with the transposed left half of W1's columns. -/
theorem V_v3_eq : (V m c main_v3 : FVec Ideal S512x256 .f32)
    = Host.dotGeneral (F := Ideal) dot_S512x128_S128x256_S512x256_1_0_0_1_n_n none (a0 m c)
        (transpose S128x256 [1, 0] (extractStridedSlice S256x128 ![0, 0] (a2 m c) slices_S256x256_S256x128_0_0)
          transposes_S256x128_S128x256_1_0) := by
  dsimp only [Gen.V, Gen.hostOps0]; after_results

/-- x · Wbᵀ, as computed: the product of x with the transposed right half of W1's columns. -/
theorem V_v5_eq : (V m c main_v5 : FVec Ideal S512x256 .f32)
    = Host.dotGeneral (F := Ideal) dot_S512x128_S128x256_S512x256_1_0_0_1_n_n none (a0 m c)
        (transpose S128x256 [1, 0] (extractStridedSlice S256x128 ![0, 128] (a2 m c) slices_S256x256_S256x128_0_128)
          transposes_S256x128_S128x256_1_0) := by
  dsimp only [Gen.V, Gen.hostOps0]; after_results

/-- The adjacency weights' row sums, as computed: summed along each row from zero, then set as a column. -/
theorem V_v7_eq : (V m c main_v7 : FVec Ideal S512x1 .f32)
    = broadcastInDim S512x1 ![0] bcast_S512_S512x1_0
        (Host.reduceAdd (F := Ideal) (a1 m c) (constant S_ .f32 0x00000000#32) reducesTo_S512x512_S512_d1 h_S_) := by
  dsimp only [Gen.V, Gen.hostOps0]; after_results

/-- The four bias vectors, each set as a row. -/
theorem V_v8_eq : (V m c main_v8 : FVec Ideal S1x256 .f32) = shapeCast S1x256 (a3 m c) shapeCasts_S256_S1x256 := by
  dsimp only [Gen.V, Gen.hostOps0]; after_results; rfl
theorem V_v9_eq : (V m c main_v9 : FVec Ideal S1x256 .f32) = shapeCast S1x256 (a5 m c) shapeCasts_S256_S1x256 := by
  dsimp only [Gen.V, Gen.hostOps0]; after_results; rfl
theorem V_v10_eq : (V m c main_v10 : FVec Ideal S1x256 .f32) = shapeCast S1x256 (a7 m c) shapeCasts_S256_S1x256 := by
  dsimp only [Gen.V, Gen.hostOps0]; after_results; rfl
theorem V_v11_eq : (V m c main_v11 : FVec Ideal S1x256 .f32) = shapeCast S1x256 (a9 m c) shapeCasts_S256_S1x256 := by
  dsimp only [Gen.V, Gen.hostOps0]; after_results; rfl

/-- The three weight matrices in the narrower format. -/
theorem V_v12_eq : (V m c main_v12 : FVec Ideal S256x256 .bf16) = truncf .bf16 (a4 m c) bitsLt_bf16_f32 := by
  dsimp only [Gen.V, Gen.hostOps0]; after_results
theorem V_v13_eq : (V m c main_v13 : FVec Ideal S256x256 .bf16) = truncf .bf16 (a6 m c) bitsLt_bf16_f32 := by
  dsimp only [Gen.V, Gen.hostOps0]; after_results
theorem V_v14_eq : (V m c main_v14 : FVec Ideal S256x256 .bf16) = truncf .bf16 (a8 m c) bitsLt_bf16_f32 := by
  dsimp only [Gen.V, Gen.hostOps0]; after_results

/-! ## The two halves of the first linear map -/

/-- The printed dimension numbers of the two products are those of a plain 512×128 by 128×256 product. -/
theorem dot_plain : dot_S512x128_S128x256_S512x256_1_0_0_1_n_n = DotDims.plain 512 128 256 := rfl

/-- The sender's half at (j, h): Σ_d x (j, d) · W1 (h, d). -/
theorem V_pa (j : Fin 512) (h : Fin 256) :
    (V m c main_v3 : FVec Ideal S512x256 .f32) (ix2 j h)
      = Cert.EdgeMean.pa (fun p d => a0 m c (ix2 p d)) (fun h d => a2 m c (ix2 h d)) j h := by
  rw [V_v3_eq]
  simp only [Host.dotGeneral]
  rw [dot_plain]
  refine (Cert.Lib.PlainDot.dotGeneral_apply 512 128 256 none _ (a0 m c) _ (ix2 j h)).trans ?_
  unfold Cert.EdgeMean.pa
  refine Finset.sum_congr rfl fun d _ => congrArg (a0 m c (ix2 j d) * ·) ?_
  refine (transpose_ix2_apply _ transposes_S256x128_S128x256_1_0 d h).trans ?_
  exact slice2_axis1_apply 0 (a2 m c) slices_S256x256_S256x128_0_0 h d (Cert.EdgeMean.lo d) (Nat.zero_add _).symm

/-- The receiver's half at (i, h): Σ_d x (i, d) · W1 (h, 128 + d). -/
theorem V_pb (i : Fin 512) (h : Fin 256) :
    (V m c main_v5 : FVec Ideal S512x256 .f32) (ix2 i h)
      = Cert.EdgeMean.pb (fun p d => a0 m c (ix2 p d)) (fun h d => a2 m c (ix2 h d)) i h := by
  rw [V_v5_eq]
  simp only [Host.dotGeneral]
  rw [dot_plain]
  refine (Cert.Lib.PlainDot.dotGeneral_apply 512 128 256 none _ (a0 m c) _ (ix2 i h)).trans ?_
  unfold Cert.EdgeMean.pb
  refine Finset.sum_congr rfl fun d _ => congrArg (a0 m c (ix2 i d) * ·) ?_
  refine (transpose_ix2_apply _ transposes_S256x128_S128x256_1_0 d h).trans ?_
  exact slice2_axis1_apply 128 (a2 m c) slices_S256x256_S256x128_0_128 h d (Cert.EdgeMean.hi d) rfl

/-! ## The row sums of the adjacency weights -/

/-- Entry (i, 0) of the column of row sums: zero plus the sum over senders, which is the sum. -/
theorem V_rs (i : Fin 512) :
    (V m c main_v7 : FVec Ideal S512x1 .f32) (ix2 i (0 : Fin 1)) = ∑ j : Fin 512, a1 m c (ix2 i j) := by
  rw [V_v7_eq]
  refine (broadcastInDim_apply _ bcast_S512_S512x1_0 _ (ix2 i (0 : Fin 1)) (ix1 i) (fun a => match a with
    | ⟨0, _⟩ => by show i.val = if (512 : Nat) = 1 then 0 else i.val; rw [if_neg (by decide)])).trans ?_
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  exact Finset.sum_congr rfl fun j _ => congrArg (a1 m c) (funext fun a => Fin.ext (by
    match a with
    | ⟨0, _⟩ => rfl
    | ⟨1, _⟩ => rfl))

/-! ## The bias rows -/

theorem V_b1 (h : Fin 256) : (V m c main_v8 : FVec Ideal S1x256 .f32) (ix2 (0 : Fin 1) h) = a3 m c (ix1 h) := by
  rw [V_v8_eq]; exact shapeCast_a_1a_apply (a3 m c) shapeCasts_S256_S1x256 0 h
theorem V_b2 (k : Fin 256) : (V m c main_v9 : FVec Ideal S1x256 .f32) (ix2 (0 : Fin 1) k) = a5 m c (ix1 k) := by
  rw [V_v9_eq]; exact shapeCast_a_1a_apply (a5 m c) shapeCasts_S256_S1x256 0 k
theorem V_bo1 (k : Fin 256) : (V m c main_v10 : FVec Ideal S1x256 .f32) (ix2 (0 : Fin 1) k) = a7 m c (ix1 k) := by
  rw [V_v10_eq]; exact shapeCast_a_1a_apply (a7 m c) shapeCasts_S256_S1x256 0 k
theorem V_bo2 (o : Fin 256) : (V m c main_v11 : FVec Ideal S1x256 .f32) (ix2 (0 : Fin 1) o) = a9 m c (ix1 o) := by
  rw [V_v11_eq]; exact shapeCast_a_1a_apply (a9 m c) shapeCasts_S256_S1x256 0 o

/-! ## The weight matrices: a change of format is no change -/

theorem V_W2 (k h : Fin 256) : (V m c main_v12 : FVec Ideal S256x256 .bf16) (ix2 k h) = a4 m c (ix2 k h) := by
  rw [V_v12_eq]; rfl
theorem V_Wo1 (k k' : Fin 256) : (V m c main_v13 : FVec Ideal S256x256 .bf16) (ix2 k k') = a6 m c (ix2 k k') := by
  rw [V_v13_eq]; rfl
theorem V_Wo2 (o k : Fin 256) : (V m c main_v14 : FVec Ideal S256x256 .bf16) (ix2 o k) = a8 m c (ix2 o k) := by
  rw [V_v14_eq]; rfl

end Cert.HostGlue

end
-- ==== Proof.KernelValue.lean ====
/-
  The kernel's result array is the specification `outK` of the argument arrays.

  After the last sender tile of receiver block i the accumulator entry (r, h) is the sum over ALL 512 senders
  j of adj (64·i + r, j) · hid (64·i + r, j, h): the four tiles' partial sums, each over 128 consecutive
  senders, laid end to end.  The result block written back there is the two dense layers of the row's `pred`,
  which is `outK` at row 64·i + r; the eight blocks written back cover the result array.
-/
import proofs.«119894_j1580547967222_2_alg».proof.Proof.Gen.KernelIdeal.Value
import proofs.«119894_j1580547967222_2_alg».proof.Proof.EdgeMean
import proofs.«119894_j1580547967222_2_alg».proof.Proof.BodyPieces
import proofs.«119894_j1580547967222_2_alg».proof.Proof.BodyRead
import proofs.«119894_j1580547967222_2_alg».proof.Proof.Blocks
import proofs.«119894_j1580547967222_2_alg».proof.Proof.Accumulate
import proofs.«119894_j1580547967222_2_alg».proof.Proof.HostGlue
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelIdeal.Value Cert.HostGlue Cert.EdgeMean

variable (m : (ℓ : Loc nD τ sig) → Buf (Elt Ideal) ℓ) (ρ : Dev nD → PrngReg)

/-! ## Four tiles of 128 senders are the 512 senders -/

/-- A sum over 512 = 4·128 positions, tile by tile. -/
theorem sum_tiles {β : Type*} [AddCommMonoid β] (G : Fin (4 * 128) → β) :
    ∑ s : Fin 4, ∑ l : Fin 128, G (finProdFinEquiv (s, l)) = ∑ j, G j := by
  rw [← Fintype.sum_prod_type', Equiv.sum_comp]

/-- The zero block the accumulator is reset to. -/
theorem zero_entry (i : S64x256.Idx) : k0_pay1 (F := Ideal) i = 0 := by
  unfold k0_pay1
  simp only [shapeCast_self, broadcast_apply]
  exact (Ideal.ofBits_def _).trans Ideal.ofBits_zero_f32

/-! ## The accumulator -/

/-- The node features, the first layer's weights and bias as functions of coordinates. -/
abbrev X (c : Dev nD) : Fin 512 → Fin 128 → EReal := fun p d => a0 m c (ix2 p d)
abbrev W1 (c : Dev nD) : Fin 256 → Fin 256 → EReal := fun h d => a2 m c (ix2 h d)
abbrev B1 (c : Dev nD) : Fin 256 → EReal := fun h => a3 m c (ix1 h)

/-- The partial sum of the tile at point `n`, at entry (r, h): the 128 senders 128·(n mod 4) … of receiver
    64·(n div 4) + r. -/
theorem part_entry (c : Dev nD) (n : ℕ) (hb : n < cfg0.N) (r : Fin 64) (h : Fin 256) (R : Fin 512)
    (hR : R.val = 64 * (n / 4) + r.val) (Jf : Fin 128 → Fin 512) (hJ : ∀ l, (Jf l).val = 128 * (n % 4) + l.val) :
    Cert.Accumulate.part m c n (ix2 r h)
      = ∑ l : Fin 128, a1 m c (ix2 R (Jf l)) * hid (X m c) (W1 m c) (B1 m c) R (Jf l) h := by
  unfold Cert.Accumulate.part
  rw [dif_pos hb]
  refine (Cert.BodyRead.tile_step (iblk m c 0 ⟨n, hb⟩) (iblk m c 1 ⟨n, hb⟩) (iblk m c 4 ⟨n, hb⟩) (iblk m c 2 ⟨n, hb⟩)
    (fun _ => 0) r h).trans ?_
  refine (zero_add _).trans (Finset.sum_congr rfl fun l _ => ?_)
  rw [Cert.Blocks.blk_adj m c ⟨n, hb⟩ r l R (Jf l) hR (hJ l), Cert.Blocks.blk_pa m c ⟨n, hb⟩ l h (Jf l) (hJ l),
    Cert.Blocks.blk_pb m c ⟨n, hb⟩ r h R hR, Cert.Blocks.blk_b1 m c ⟨n, hb⟩ 0 h, V_main_arg1, V_pa, V_pb, V_b1]
  rfl

/-- After the last tile of a receiver block the accumulator entry is the sum over all 512 senders. -/
theorem acc_entry (c : Dev nD) (t : Fin cfg0.N) (h3 : t.val % 4 = 3) (r : Fin 64) (h : Fin 256) (R : Fin 512)
    (hR : R.val = 64 * (t.val / 4) + r.val) :
    (outsAt0 m c t.val t.isLt).2 (ix2 r h)
      = ∑ j : Fin 512, a1 m c (ix2 R j) * hid (X m c) (W1 m c) (B1 m c) R j h := by
  have hN : cfg0.N = 32 := N_0
  have ht : t.val < 32 := lt_of_lt_of_eq t.isLt hN
  rw [Cert.Accumulate.scratch_fold m c t (ix2 r h), h3, zero_entry, zero_add, Finset.sum_range]
  rw [← sum_tiles (fun j : Fin 512 => a1 m c (ix2 R j) * hid (X m c) (W1 m c) (B1 m c) R j h)]
  refine Finset.sum_congr rfl fun s _ => ?_
  have hs : s.val < 4 := s.isLt
  exact part_entry m c (4 * (t.val / 4) + s.val) (lt_of_lt_of_eq (by omega) hN.symm) r h R (by omega)
    (fun l => finProdFinEquiv (s, l)) (fun l => by
      have hl : l.val < 128 := l.isLt
      show l.val + 128 * s.val = _
      omega)

/-! ## The result block written back after the last tile -/

/-- At a last tile the accumulator is what the visit before left plus this tile's partial sum. -/
theorem scratch_last (c : Dev nD) (t : Fin cfg0.N) (h0 : ¬t.val % 4 = 0) (h3 : t.val % 4 = 3) :
    (outsAt0 m c t.val t.isLt).2
      = k0_pay2 (F := Ideal) (iblk m c 0 t) (iblk m c 1 t) (iblk m c 4 t) (iblk m c 2 t)
          (outsAt0 m c (t.val - 1) (Nat.lt_of_le_of_lt (Nat.sub_le _ _) t.isLt)).2 := by
  rw [outsAt0_C m c t h0 h3]
  exact Cert.BodyPieces.scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (outsAt0 m c (t.val - 1) (Nat.lt_of_le_of_lt (Nat.sub_le _ _) t.isLt)).2

/-- Entry (r, o) of the block written back at a last-tile point is `outK` at row 64·(t div 4) + r. -/
theorem out_entry (c : Dev nD) (t : Fin cfg0.N) (h3 : t.val % 4 = 3) (r : Fin 64) (o : Fin 256) (R : Fin 512)
    (hR : R.val = 64 * (t.val / 4) + r.val) :
    k0_pay3 (F := Ideal) (outsAt0 m c t.val t.isLt).2 (iblk m c 3 t) (iblk m c 6 t) (iblk m c 5 t) (iblk m c 7 t)
        (iblk m c 8 t) (iblk m c 9 t) (iblk m c 10 t) (ix2 r o)
      = outK (a0 m c) (a1 m c) (a2 m c) (a3 m c) (a4 m c) (a5 m c) (a6 m c) (a7 m c) (a8 m c) (a9 m c) (ix2 R o) := by
  refine (Cert.BodyRead.dense_tail (outsAt0 m c t.val t.isLt).2 (iblk m c 3 t) (iblk m c 6 t) (iblk m c 5 t) (iblk m c 7 t)
    (iblk m c 8 t) (iblk m c 9 t) (iblk m c 10 t) r o).trans ?_
  simp only [acc_entry m c t h3 r _ R hR, Cert.Blocks.blk_rs m c t r _ R hR, Cert.Blocks.blk_b2, Cert.Blocks.blk_W2,
    Cert.Blocks.blk_Wo1, Cert.Blocks.blk_bo1, Cert.Blocks.blk_Wo2, Cert.Blocks.blk_bo2]
  show _ = (∑ k : Fin 256, max ((∑ k' : Fin 256,
      predKA (a0 m c) (a1 m c) (a2 m c) (a3 m c) (a4 m c) (a5 m c) R k' * a6 m c (ix2 k k')) + a7 m c (ix1 k)) 0
        * a8 m c (ix2 o k)) + a9 m c (ix1 o)
  -- the two dense layers read the same weights and biases on both sides
  refine congrArg₂ (· + ·) (Finset.sum_congr rfl fun k _ => ?_) (V_bo2 m c o)
  refine congrArg₂ (· * ·) (congrArg (max · 0) (congrArg₂ (· + ·) (Finset.sum_congr rfl fun k' _ => ?_) (V_bo1 m c k)))
    (V_Wo2 m c o k)
  refine congrArg₂ (· * ·) ?_ (V_Wo1 m c k k')
  -- the row's pred: the accumulator against W2's row, plus the row sum times the bias, scaled
  unfold predKA predK
  exact congrArg (· * Ideal.ofBits .f32 0x3B000000#32) (congrArg₂ (· + ·)
    (Finset.sum_congr rfl fun h _ => congrArg₂ (· * ·) rfl (V_W2 m c k' h))
    (congrArg₂ (· * ·) (V_rs m c R) (V_b2 m c k')))

/-- WHAT A LAST-TILE POINT WRITES BACK is its block of `outK` of the argument arrays. -/
theorem flushed_eq (c : Dev nD) (t : Fin cfg0.N) (hf : (cfg0.win 11).flush t = true) :
    (dats m 0 c).flushed 11 t = ((cfg0.win 11).blk t).view.read (Elt Ideal) (outK (a0 m c) (a1 m c) (a2 m c) (a3 m c) (a4 m c) (a5 m c) (a6 m c) (a7 m c) (a8 m c) (a9 m c)) := by
  have h3 : t.val % 4 = 3 := (flush0_11 t).mp hf
  have h0 : ¬t.val % 4 = 0 := by omega
  have hN : cfg0.N = 32 := N_0
  have ht : t.val < 32 := lt_of_lt_of_eq t.isLt hN
  rw [flushed11_C m c t h0 h3]
  rw [Cert.BodyPieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    (fun h => h0 ((hcond0_0 t).mp h)) ((hcond0_1 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (outsAt0 m c (t.val - 1) (Nat.lt_of_le_of_lt (Nat.sub_le _ _) t.isLt)).2]
  rw [← scratch_last m c t h0 h3]
  funext j
  obtain ⟨r, o, rfl⟩ : ∃ (r : Fin 64) (o : Fin 256), j = ix2 r o :=
    ⟨⟨(j 0).val, (j 0).isLt⟩, ⟨(j 1).val, (j 1).isLt⟩, funext fun a => by
      match a with
      | ⟨0, _⟩ => rfl
      | ⟨1, _⟩ => rfl⟩
  have hr : r.val < 64 := r.isLt
  rw [View.read_apply, Cert.Blocks.emb_out t r o ⟨64 * (t.val / 4) + r.val, by omega⟩ rfl]
  exact out_entry m c t h3 r o ⟨64 * (t.val / 4) + r.val, by omega⟩ rfl

/-- THE RESULT ARRAY after the run is `outK` of the argument arrays. -/
theorem final (c : Dev nD) : (dats m 0 c).arrAt 11 cfg0.N = outK (a0 m c) (a1 m c) (a2 m c) (a3 m c) (a4 m c) (a5 m c) (a6 m c) (a7 m c) (a8 m c) (a9 m c) :=
  (dats m 0 c).arrAt_eq_of_cover 11 (outK (a0 m c) (a1 m c) (a2 m c) (a3 m c) (a4 m c) (a5 m c) (a6 m c) (a7 m c) (a8 m c) (a9 m c)) (fun t hf => flushed_eq m c t hf) Cert.Blocks.cover_out

/-- The run, read: the result array at `outK` of the arguments, the arguments unchanged. -/
theorem run : θ_run defs (onTc (τ := τ) (main (F := Ideal))) ⟨m, fun _ => 0, ρ⟩ fun r => ∀ c : Dev nD,
      r.2.mem ((c : Thread nD τ).loc main_v15) = outK (a0 m c) (a1 m c) (a2 m c) (a3 m c) (a4 m c) (a5 m c) (a6 m c) (a7 m c) (a8 m c) (a9 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelValue

end
-- ==== Proof.lean ====
/-
  The claim: the kernel and its reference compute the same [512, 256] array over the extended reals.

  Both programs form, for every pair of nodes (receiver i, sender j), the edge feature
  hid i j = relu (pa j + pb i + b1), with pa, pb the two halves of one linear map of the node features, and end
  with the same two dense layers.  In between, the reference applies a second linear map to every edge and
  takes the adjacency-weighted mean over the 512 senders; the kernel accumulates the weighted edge features
  over four tiles of 128 senders, applies the linear map once per node to the sum (the bias entering through
  the adjacency's row sums), and scales by 2⁻⁹.  A finite sum commutes with a linear map and 2⁻⁹ is exactly
  1/512, so the two agree on real inputs (Proof/EdgeMean.lean); the precondition makes the inputs real
  (Proof/FiniteArgs.lean).  The reference's result array is read off its run (Proof/RefRead.lean); the
  kernel's is read off the run of its grid: what each visit of the body leaves (Proof/BodyPieces.lean,
  Proof/BodyRead.lean), where each block sits (Proof/Blocks.lean), what the region finds in its operands
  (Proof/HostGlue.lean), the accumulator as a fold (Proof/Accumulate.lean), and the result array from the
  eight blocks written back (Proof/KernelValue.lean).  Each program runs to the end with its arguments
  unchanged; the idealization of the kernel rewrote nothing.
-/
import proofs.«119894_j1580547967222_2_alg».proof.Defs
import proofs.«119894_j1580547967222_2_alg».proof.Proof.Gen.Kernel
import proofs.«119894_j1580547967222_2_alg».proof.Proof.Gen.Kernel.Frame
import proofs.«119894_j1580547967222_2_alg».proof.Proof.Gen.KernelIdeal
import proofs.«119894_j1580547967222_2_alg».proof.Proof.Gen.KernelIdeal.Frame
import proofs.«119894_j1580547967222_2_alg».proof.Proof.Gen.KernelIdeal.Value
import proofs.«119894_j1580547967222_2_alg».proof.Proof.Gen.ReferenceIdeal
import proofs.«119894_j1580547967222_2_alg».proof.Proof.Gen.ReferenceIdeal.Run
import proofs.«119894_j1580547967222_2_alg».proof.Proof.Gen.ReferenceIdeal.Read
import proofs.«119894_j1580547967222_2_alg».proof.Proof.Gen.Pre_finite_inputs
import proofs.«119894_j1580547967222_2_alg».proof.Proof.EdgeMean
import proofs.«119894_j1580547967222_2_alg».proof.Proof.FiniteArgs
import proofs.«119894_j1580547967222_2_alg».proof.Proof.RefRead
import proofs.«119894_j1580547967222_2_alg».proof.Proof.KernelValue
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array ends at `outK` of its arguments and the reference's at `outR` of
    arguments that agree; with real entries, which the precondition gives, these are one array. -/
theorem algebraic : Cert.algebraic_KernelIdeal_ReferenceIdeal := by
  intro m ρ m' ρ' hpre hagree
  refine ⟨fun c => Cert.EdgeMean.outK (Cert.HostGlue.a0 m c) (Cert.HostGlue.a1 m c) (Cert.HostGlue.a2 m c)
    (Cert.HostGlue.a3 m c) (Cert.HostGlue.a4 m c) (Cert.HostGlue.a5 m c) (Cert.HostGlue.a6 m c) (Cert.HostGlue.a7 m c)
    (Cert.HostGlue.a8 m c) (Cert.HostGlue.a9 m c), Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  obtain ⟨r0, r1, r2, r3, r4, r5⟩ := Cert.FiniteArgs.real_of_pre _ _ _ _ _ _ _ _ _ _ (hpre c)
  exact ((Cert.ReferenceIdeal.Read.val_main_v35_eq _ _ _ _ _ _ _ _ _ _).trans
    (Cert.RefRead.ref_out _ _ _ _ _ _ _ _ _ _)).trans
    (Cert.EdgeMean.outK_eq_outR _ _ _ _ _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
